-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048 : Shape := ⟨1, ![2048]⟩
abbrev S2048x10 : Shape := ⟨2, ![2048, 10]⟩
abbrev S10 : Shape := ⟨1, ![10]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x10 : S_.BroadcastsInDim S2048x10 (![] : Fin 0 → Fin S2048x10.rank)
  reducesTo_S2048x10_S_d0_1 : S2048x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S2048 .f32) (main_arg5 : FVec F S2048x10 .f32) (main_arg6 : FVec F S10 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x10 .f32 := Host.absf main_arg5
  let main_cst_8 : FVec F S_ .f32 := constant S_ .f32 0x7F800000#32
  let main_v25 : FVec F S2048x10 .f32 := broadcastInDim S2048x10 ![] bcast_S_S2048x10 main_cst_8
  let main_v26 : IVec S2048x10 1 := cmpf .olt main_v24 main_v25
  let main_c_9 : IVec S_ 1 := constantI S_ 1 1#1
  let main_v27 : IVec S_ 1 := (fun x v => Host.reduce IntOp.andi x v reducesTo_S2048x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S2048x2048 .f32) (main_arg1 : FVec F S2048x2048 .f32) (main_arg2 : FVec F S2048 .f32) (main_arg3 : FVec F S2048x2048 .f32) (main_arg4 : FVec F S2048 .f32) (main_arg5 : FVec F S2048x10 .f32) (main_arg6 : FVec F S10 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Kernel.lean ====
abbrev S2048x2048 : Shape := ⟨2, ![2048, 2048]⟩
abbrev S2048 : Shape := ⟨1, ![2048]⟩
abbrev S2048x10 : Shape := ⟨2, ![2048, 10]⟩
abbrev S10 : Shape := ⟨1, ![10]⟩
abbrev S_ : Shape := ⟨0, ![]⟩
abbrev S2048x128 : Shape := ⟨2, ![2048, 128]⟩
abbrev S128 : Shape := ⟨1, ![128]⟩
abbrev S1x128 : Shape := ⟨2, ![1, 128]⟩
abbrev S1x2048 : Shape := ⟨2, ![1, 2048]⟩
abbrev S256x2048 : Shape := ⟨2, ![256, 2048]⟩
abbrev S256x128 : Shape := ⟨2, ![256, 128]⟩

abbrev nBuf : Space → Nat
  | .hbm => 21
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x10, .f32⟩
  | .hbm, ⟨6, _⟩ => ⟨S10, .f32⟩
  | .hbm, ⟨7, _⟩ => ⟨S2048x2048, .bf16⟩
  | .hbm, ⟨8, _⟩ => ⟨S2048x2048, .bf16⟩
  | .hbm, ⟨9, _⟩ => ⟨S2048x10, .bf16⟩
  | .hbm, ⟨10, _⟩ => ⟨S_, .i32⟩
  | .hbm, ⟨11, _⟩ => ⟨S_, .bf16⟩
  | .hbm, ⟨12, _⟩ => ⟨S2048x128, .bf16⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S1x2048, .f32⟩
  | .hbm, ⟨18, _⟩ => ⟨S1x2048, .f32⟩
  | .hbm, ⟨19, _⟩ => ⟨S2048x128, .f32⟩
  | .hbm, ⟨20, _⟩ => ⟨S2048x10, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S2048x2048, .bf16⟩
  | .local _ .vmem, ⟨5, _⟩ => ⟨S1x2048, .f32⟩
  | .local _ .vmem, ⟨6, _⟩ => ⟨S2048x128, .bf16⟩
  | .local _ .vmem, ⟨7, _⟩ => ⟨S1x128, .f32⟩
  | .local _ .vmem, ⟨8, _⟩ => ⟨S256x128, .f32⟩
  | .local _ .vmem, ⟨9, _⟩ => ⟨S256x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_c : Ref sig .tc := ⟨.hbm, 10, rfl⟩
abbrev main_call0_call0_v0 : Ref sig .tc := ⟨.hbm, 11, rfl⟩
abbrev main_call0_v3 : Ref sig .tc := ⟨.hbm, 12, rfl⟩
abbrev main_call0_c_0 : Ref sig .tc := ⟨.hbm, 13, rfl⟩
abbrev main_call0_call1_v0 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  pads_S2048x10_S2048x128_000_01180 : S2048x10.Pads (![0, 0] : Fin 2 → Nat) ![0, 118] ![0, 0] S2048x128
  h_S_ : 0 < S_.numel
  pads_S10_S128_01180 : S10.Pads (![0] : Fin 1 → Nat) ![118] ![0] S128
  shapeCasts_S128_S1x128 : S128.ShapeCasts S1x128
  shapeCasts_S2048_S1x2048 : S2048.ShapeCasts S1x2048
  slices_S2048x128_S2048x10_0_0 : S2048x128.Slices ![0, 0] S2048x10
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  dot_S256x2048_S2048x2048_S256x2048_1_0_0_1_n_n_wf : DotDims.WF S256x2048 S2048x2048 S256x2048 [1] [0] [0] [1] [] []
  dot_S256x2048_S2048x128_S256x128_1_0_0_1_n_n_wf : DotDims.WF S256x2048 S2048x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S2048x128.size a
  hwx0_5 : ∀ i : grid0.Coords, EltTy.bits .bf16 = 32 ∨ (Rect.block (s := S2048x128) S2048x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S2048x128.size a
  hwx0_7 : ∀ i : grid0.Coords, EltTy.bits .f32 = 32 ∨ (Rect.block (s := S2048x128) S256x128.size (cc0_transform_7 i) (hinb0_7 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v6) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v7) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S2048x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v8) S256x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S2048 : Shape := ⟨1, ![2048]⟩
abbrev S2048x10 : Shape := ⟨2, ![2048, 10]⟩
abbrev S10 : Shape := ⟨1, ![10]⟩
abbrev S1x2048 : Shape := ⟨2, ![1, 2048]⟩
abbrev S4x2048x10 : Shape := ⟨3, ![4, 2048, 10]⟩
abbrev S_ : Shape := ⟨0, ![]⟩
abbrev S1x10 : Shape := ⟨2, ![1, 10]⟩
abbrev S2048x512 : Shape := ⟨2, ![2048, 512]⟩
abbrev S1x512 : Shape := ⟨2, ![1, 512]⟩
abbrev S512x10 : Shape := ⟨2, ![512, 10]⟩
abbrev S1x2048x10 : Shape := ⟨3, ![1, 2048, 10]⟩

abbrev nBuf : Space → Nat
  | .hbm => 16
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x10, .f32⟩
  | .hbm, ⟨6, _⟩ => ⟨S10, .f32⟩
  | .hbm, ⟨7, _⟩ => ⟨S1x2048, .f32⟩
  | .hbm, ⟨8, _⟩ => ⟨S2048x2048, .f32⟩
  | .hbm, ⟨9, _⟩ => ⟨S1x2048, .f32⟩
  | .hbm, ⟨10, _⟩ => ⟨S4x2048x10, .f32⟩
  | .hbm, ⟨11, _⟩ => ⟨S_, .f32⟩
  | .hbm, ⟨12, _⟩ => ⟨S2048x10, .f32⟩
  | .hbm, ⟨13, _⟩ => ⟨S1x10, .f32⟩
  | .hbm, ⟨14, _⟩ => ⟨S2048x10, .f32⟩
  | .hbm, ⟨15, _⟩ => ⟨S2048x10, .f32⟩
  | .local _ .vmem, ⟨0, _⟩ => ⟨S2048x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S2048x512, .f32⟩
  | .local _ .vmem, ⟨6, _⟩ => ⟨S2048x512, .f32⟩
  | .local _ .vmem, ⟨7, _⟩ => ⟨S2048x2048, .f32⟩
  | .local _ .vmem, ⟨8, _⟩ => ⟨S2048x512, .f32⟩
  | .local _ .vmem, ⟨9, _⟩ => ⟨S2048x512, .f32⟩
  | .local _ .vmem, ⟨10, _⟩ => ⟨S1x512, .f32⟩
  | .local _ .vmem, ⟨11, _⟩ => ⟨S1x512, .f32⟩
  | .local _ .vmem, ⟨12, _⟩ => ⟨S512x10, .f32⟩
  | .local _ .vmem, ⟨13, _⟩ => ⟨S512x10, .f32⟩
  | .local _ .vmem, ⟨14, _⟩ => ⟨S1x2048x10, .f32⟩
  | .local _ .vmem, ⟨15, _⟩ => ⟨S1x2048x10, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_cst : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_v0 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S2048x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x10 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x2048x10 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S2048_S1x2048 : S2048.ShapeCasts S1x2048
  reducesTo_S4x2048x10_S2048x10_d0 : S4x2048x10.ReducesTo [0] S2048x10
  h_S_ : 0 < S_.numel
  shapeCasts_S10_S1x10 : S10.ShapeCasts S1x10
  bcast_S1x10_S2048x10_0_1 : S1x10.BroadcastsInDim S2048x10 (![0, 1] : Fin 2 → Fin S2048x10.rank)
  inb_S2048x2048_S2048x2048_0_0 : ∀ a, (![0, 0] : Fin 2 → Nat) a + S2048x2048.size a ≤ S2048x2048.size a
  h_S2048x2048 : 0 < S2048x2048.numel
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  shapeCasts_S2048x2048_S2048x2048 : S2048x2048.ShapeCasts S2048x2048
  inb_S512x10_S512x10_0_0 : ∀ a, (![0, 0] : Fin 2 → Nat) a + S512x10.size a ≤ S512x10.size a
  h_S512x10 : 0 < S512x10.numel
  shapeCasts_S2048x10_S1x2048x10 : S2048x10.ShapeCasts S1x2048x10
  inb_S1x2048x10_S1x2048x10_0_0_0 : ∀ a, (![0, 0, 0] : Fin 3 → Nat) a + S1x2048x10.size a ≤ S1x2048x10.size a
  h_S1x2048x10 : 0 < S1x2048x10.numel
  dot_S2048x2048_S2048x512_S2048x512_1_0_0_1_n_n_wf : DotDims.WF S2048x2048 S2048x512 S2048x512 [1] [0] [0] [1] [] []
  dot_S2048x512_S512x10_S2048x10_1_0_0_1_n_n_wf : DotDims.WF S2048x512 S512x10 S2048x10 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S2048x2048.size a
  hwx0_0 : ∀ i : grid0.Coords, EltTy.bits .f32 = 32 ∨ (Rect.block (s := S2048x2048) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x2048.size a
  hwx0_1 : ∀ i : grid0.Coords, EltTy.bits .f32 = 32 ∨ (Rect.block (s := S2048x2048) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x2048.size a
  hwx0_3 : ∀ i : grid0.Coords, EltTy.bits .f32 = 32 ∨ (Rect.block (s := S2048x2048) S2048x512.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S2048x2048.size a
  hwx1_0 : ∀ i : grid1.Coords, EltTy.bits .f32 = 32 ∨ (Rect.block (s := S2048x2048) S2048x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x2048.size a
  hwx1_1 : ∀ i : grid1.Coords, EltTy.bits .f32 = 32 ∨ (Rect.block (s := S2048x2048) S2048x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x2048.size a
  hwx1_2 : ∀ i : grid1.Coords, EltTy.bits .f32 = 32 ∨ (Rect.block (s := S1x2048) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x10.size a ≤ S2048x10.size a
  hwx1_3 : ∀ i : grid1.Coords, EltTy.bits .f32 = 32 ∨ (Rect.block (s := S2048x10) S512x10.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x10.size a ≤ S4x2048x10.size a
  hwx1_4 : ∀ i : grid1.Coords, EltTy.bits .f32 = 32 ∨ (Rect.block (s := S4x2048x10) S1x2048x10.size (cc1_transform_4 i) (hinb1_4 i)).WholeWords (EltTy.packing .f32)

variable [Facts₀]

def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf
def dot_S2048x512_S512x10_S2048x10_1_0_0_1_n_n : DotDims S2048x512 S512x10 S2048x10 where
  lhsContracting := [1]
  rhsContracting := [0]
  lhsNonContracting := [0]
  rhsNonContracting := [1]
  lhsBatch := []
  rhsBatch := []
  wf := dot_S2048x512_S512x10_S2048x10_1_0_0_1_n_n_wf

abbrev win0_0 : Pipeline.Window sig grid0 :=
  Pipeline.Window.ofSpec (Memref.whole main_arg0) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v1) S2048x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v2) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S512x10.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v3) S1x2048x10.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibDenseLayer.lean ====
/-
  Dense (fully connected) layers on the extended reals, and the same layers as a vector unit computes them.

  A matrix is a function of a rank-2 index. The AFFINE layer  l · w + b  has entry (p, c) equal to
  Σ_q l[p,q] · w[q,c] + b[0,c], the bias a 1×N row repeated down the rows; the HIDDEN layer takes the maximum of that with
  the float word of 0.0 (relu; the word is never evaluated). Three kinds of facts, any extents, no program needed:

  * entry (p, c) of a layer depends only on row p of the left operand, column c of the weights and entry c of the bias
    row (`affine_congr`, `hidden_congr`; `network_rows` for a stack of two hidden layers and an affine one), which is what
    lets a block computed from a tile of an operand be read as a block of the layer of the whole arrays;
  * a product into a zero accumulator, plus the bias row broadcast down the rows, and the maximum with the zero splat,
    is the layer as a whole array (`affine_eq`, `hidden_eq`; `product_apply` for the product alone), for dimension numbers
    contracting the left operand's second axis against the right operand's first, any operand formats;
  * a change of float format is the identity (`truncf_eq`) and a vector reshaped to a 1×A row is `row` of it
    (`reshape_row`).
-/
import Idealize.ShloMosaic.PureOps.Ideal.Laws
import Idealize.ShloMosaic.Lib.ValueIdx
import Idealize.ShloMosaic.Lib.ValueLayout
import proofs.«121058_g2000405920905475_pallasbulk_554_2_alg».proof.Proof.LibPlainDot

noncomputable section

open scoped BigOperators

namespace Cert.DenseLayer

open Idealize.ShloMosaic Idealize.ShloMosaic.ValueIdx

/-- An A×B matrix of extended reals. -/
abbrev Mat (A B : Nat) : Type := (⟨2, ![A, B]⟩ : Shape).Idx → EReal
/-- A length-A vector of extended reals. -/
abbrev Vect (A : Nat) : Type := (⟨1, ![A]⟩ : Shape).Idx → EReal

/-- The float word of 0.0 read on the extended reals. -/
abbrev zeroWord : EReal := Ideal.ofBits .f32 0x00000000#32

/-- A vector laid out as a 1×A row. -/
def row {A : Nat} (v : Vect A) : Mat 1 A := fun i => v (ix1 (i 1))

theorem row_apply {A : Nat} (v : Vect A) (u : Fin 1) (c : Fin A) : row v (ix2 u c) = v (ix1 c) := rfl

/-- A vector reshaped to a 1×A row is `row` of it. -/
theorem reshape_row {A : Nat} (v : Vect A) (h : (⟨1, ![A]⟩ : Shape).ShapeCasts ⟨2, ![1, A]⟩) :
    shapeCast ⟨2, ![1, A]⟩ v h = row v := by
  funext i
  obtain ⟨u, q, rfl⟩ : ∃ (u : Fin 1) (q : Fin A), i = ix2 u q := ⟨i 0, i 1, eq_ix2 i⟩
  rw [shapeCast_a_1a_apply, row_apply]

/-- l · w + b, the bias a 1×N row repeated down the rows. -/
def affine {M K N : Nat} (l : Mat M K) (w : Mat K N) (b : Mat 1 N) : Mat M N :=
  fun j => (∑ q : Fin K, l (ix2 (j 0) q) * w (ix2 q (j 1))) + b (ix2 (0 : Fin 1) (j 1))

theorem affine_apply {M K N : Nat} (l : Mat M K) (w : Mat K N) (b : Mat 1 N) (p : Fin M) (c : Fin N) :
    affine l w b (ix2 p c) = (∑ q : Fin K, l (ix2 p q) * w (ix2 q c)) + b (ix2 (0 : Fin 1) c) := rfl

/-- relu(l · w + b). -/
def hidden {M K N : Nat} (l : Mat M K) (w : Mat K N) (b : Mat 1 N) : Mat M N :=
  fun j => max (affine l w b j) zeroWord

theorem hidden_apply {M K N : Nat} (l : Mat M K) (w : Mat K N) (b : Mat 1 N) (p : Fin M) (c : Fin N) :
    hidden l w b (ix2 p c) = max ((∑ q : Fin K, l (ix2 p q) * w (ix2 q c)) + b (ix2 (0 : Fin 1) c)) zeroWord := rfl

/-! ## An entry depends on one row, one column and one bias entry -/

section Congr
variable {M M' K N N' : Nat}

theorem affine_congr (l : Mat M K) (l' : Mat M' K) (w : Mat K N) (w' : Mat K N') (b : Mat 1 N) (b' : Mat 1 N')
    (p : Fin M) (p' : Fin M') (c : Fin N) (c' : Fin N')
    (hl : ∀ q : Fin K, l (ix2 p q) = l' (ix2 p' q)) (hw : ∀ q : Fin K, w (ix2 q c) = w' (ix2 q c'))
    (hb : b (ix2 (0 : Fin 1) c) = b' (ix2 (0 : Fin 1) c')) :
    affine l w b (ix2 p c) = affine l' w' b' (ix2 p' c') := by
  rw [affine_apply, affine_apply, hb]
  exact congrArg (· + b' (ix2 (0 : Fin 1) c')) (Finset.sum_congr rfl fun q _ => by rw [hl q, hw q])

theorem hidden_congr (l : Mat M K) (l' : Mat M' K) (w : Mat K N) (w' : Mat K N') (b : Mat 1 N) (b' : Mat 1 N')
    (p : Fin M) (p' : Fin M') (c : Fin N) (c' : Fin N')
    (hl : ∀ q : Fin K, l (ix2 p q) = l' (ix2 p' q)) (hw : ∀ q : Fin K, w (ix2 q c) = w' (ix2 q c'))
    (hb : b (ix2 (0 : Fin 1) c) = b' (ix2 (0 : Fin 1) c')) :
    hidden l w b (ix2 p c) = hidden l' w' b' (ix2 p' c') :=
  congrArg (max · zeroWord) (affine_congr l l' w w' b b' p p' c c' hl hw hb)

/-- Rows of a network of two hidden layers and an affine one: a block of input rows gives the same rows of the output. -/
theorem network_rows {K1 K2 K3 : Nat} (x : Mat M K1) (x' : Mat M' K1) (w1 : Mat K1 K2) (b1 : Mat 1 K2) (w2 : Mat K2 K3) (b2 : Mat 1 K3)
    (w3 : Mat K3 N) (b3 : Mat 1 N) (p : Fin M) (p' : Fin M') (hx : ∀ q : Fin K1, x (ix2 p q) = x' (ix2 p' q)) (c : Fin N) :
    affine (hidden (hidden x w1 b1) w2 b2) w3 b3 (ix2 p c) = affine (hidden (hidden x' w1 b1) w2 b2) w3 b3 (ix2 p' c) :=
  affine_congr _ _ w3 w3 b3 b3 p p' c c
    (fun n => hidden_congr _ _ w2 w2 b2 b2 p p' n n
      (fun k => hidden_congr x x' w1 w1 b1 b1 p p' k k hx (fun _ => rfl) rfl) (fun _ => rfl) rfl)
    (fun _ => rfl) rfl

end Congr

/-! ## The layers as the vector unit computes them -/

section Unit
variable {M K N : Nat} {d : DotDims ⟨2, ![M, K]⟩ ⟨2, ![K, N]⟩ ⟨2, ![M, N]⟩}

/-- Product into a zero accumulator plus the bias row: the affine layer. -/
theorem affine_eq (hd : Cert.PlainDot.IsPlain d) (prec : Option ContractPrecision) {φ₁ φ₂ : FTy}
    (l : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) :
    addf (matmul d prec l w (constant ⟨2, ![M, N]⟩ .f32 0x00000000#32)) (broadcastTo ⟨2, ![M, N]⟩ b hb)
      = affine l w b := by
  funext j
  obtain ⟨p, c, rfl⟩ : ∃ (p : Fin M) (c : Fin N), j = ix2 p c := ⟨j 0, j 1, eq_ix2 j⟩
  rw [addf_apply, Cert.PlainDot.matmul_zero_apply hd, broadcastTo_1b_ab_apply, affine_apply]

/-- … and the maximum with the zero splat: the hidden layer. -/
theorem hidden_eq (hd : Cert.PlainDot.IsPlain d) (prec : Option ContractPrecision) {φ₁ φ₂ : FTy}
    (l : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) :
    maximumf (addf (matmul d prec l w (constant ⟨2, ![M, N]⟩ .f32 0x00000000#32)) (broadcastTo ⟨2, ![M, N]⟩ b hb))
        (broadcast ⟨2, ![M, N]⟩ (Scalar.ofBits (F := Ideal) .f32 0x00000000#32))
      = hidden l w b := by
  rw [affine_eq hd]
  rfl

/-- A product into a zero accumulator alone, entry by entry. -/
theorem product_apply (hd : Cert.PlainDot.IsPlain d) (prec : Option ContractPrecision) {φ₁ φ₂ : FTy}
    (l : FVec Ideal ⟨2, ![M, K]⟩ φ₁) (w : FVec Ideal ⟨2, ![K, N]⟩ φ₂) (p : Fin M) (c : Fin N) :
    matmul d prec l w (constant ⟨2, ![M, N]⟩ .f32 0x00000000#32) (ix2 p c) = ∑ q : Fin K, l (ix2 p q) * w (ix2 q c) :=
  Cert.PlainDot.matmul_zero_apply hd prec l w p c

end Unit

/-- A change of float format is the identity on the extended reals. -/
theorem truncf_eq {s : Shape} {φ ψ : FTy} (a : FVec Ideal s φ) (h : ψ.bits < φ.bits) :
    (truncf ψ a h : FVec Ideal s ψ) = a := rfl

end Cert.DenseLayer

end
-- ==== Proof.LibBlockSum.lean ====
import Mathlib.Algebra.BigOperators.Fin
import Mathlib.Algebra.BigOperators.Intervals

/-!
# Summing a long sequence block by block

A sum over `T * B` consecutive indices can be taken as `T` partial sums of `B`
consecutive terms each, added up one after the other.  In an additive commutative
monoid the result is the same as the single sum over all `T * B` indices:

* `Cert.BlockSum.sum_blocks`: the general statement, for any number `T` of blocks of any
  length `B`;
* `Cert.BlockSum.sum_20x5000`: twenty blocks of five thousand terms, started from zero,
  with the block count written `19 + 1` and the position written `5000 * s + r`, equal
  to the sum over all one hundred thousand indices.

Only commutativity and associativity of the addition are used.
-/

namespace Cert.BlockSum

/-- `T` partial sums of `B` consecutive terms add up to the sum over all `T * B` terms. -/
theorem sum_blocks {β : Type*} [AddCommMonoid β] (T B : ℕ) (f : ℕ → β) :
    ∑ s ∈ Finset.range T, ∑ r : Fin B, f (s * B + r.val) = ∑ n : Fin (T * B), f n.val := by
  rw [Fin.sum_univ_eq_sum_range (fun n => f n) (T * B)]
  induction T with
  | zero => simp
  | succ T ih =>
    -- the last block is the tail of the range of length `T * B + B`
    rw [Finset.sum_range_succ, ih, Nat.succ_mul, Finset.sum_range_add,
      Fin.sum_univ_eq_sum_range (fun r => f (T * B + r)) B]

/-- Twenty blocks of five thousand terms, accumulated from zero, give the sum of all
one hundred thousand terms. -/
theorem sum_20x5000 {β : Type*} [AddCommMonoid β] (g : Fin 100000 → β) (f : ℕ → β)
    (hf : ∀ n : Fin 100000, f n.val = g n) :
    (0 : β) + ∑ s ∈ Finset.range (19 + 1), ∑ r : Fin 5000, f (5000 * s + r.val)
      = ∑ n : Fin 100000, g n := by
  rw [zero_add]
  calc ∑ s ∈ Finset.range (19 + 1), ∑ r : Fin 5000, f (5000 * s + r.val)
      = ∑ s ∈ Finset.range 20, ∑ r : Fin 5000, f (s * 5000 + r.val) := by
        refine Finset.sum_congr rfl fun s _ => Finset.sum_congr rfl fun r _ => ?_
        rw [Nat.mul_comm]
    _ = ∑ n : Fin (20 * 5000), f n.val := sum_blocks 20 5000 f
    _ = ∑ n : Fin 100000, g n := Finset.sum_congr rfl fun n _ => hf n

end Cert.BlockSum
-- ==== Proof.Spec.lean ====
/-
  The three-layer perceptron both programs compute, as functions of the argument arrays on the extended reals.

  A hidden layer is  relu(l · w + b)  and the output layer the same without the relu (the dense layers of the library
  module this one imports). The result is  Y = (h2 · w3) + b3  with  h2 = relu(relu(x·w1 + b1)·w2 + b2).

  One program contracts the 2048 hidden units of the last product in one sum; the other splits them into 4 blocks of 512,
  takes the 4 partial products, and adds them up from zero. Addition on the extended reals is commutative and
  associative, so the two agree (`Yblocks_eq_Y`); nothing here needs the entries to be finite.
-/
import proofs.«121058_g2000405920905475_pallasbulk_554_2_alg».proof.Proof.LibDenseLayer
import proofs.«121058_g2000405920905475_pallasbulk_554_2_alg».proof.Proof.LibBlockSum

noncomputable section

open scoped BigOperators

namespace Cert.Mlp3

open Idealize.ShloMosaic Idealize.ShloMosaic.ValueIdx Cert.DenseLayer

/-- The second hidden layer's activations. -/
def H2 (x : Mat 2048 2048) (w1 : Mat 2048 2048) (b1 : Vect 2048) (w2 : Mat 2048 2048) (b2 : Vect 2048) : Mat 2048 2048 :=
  hidden (hidden x w1 (row b1)) w2 (row b2)

/-- The network's output: entry (p, c) is  Σ_n h2[p,n] · w3[n,c] + b3[c]. -/
def Y (x : Mat 2048 2048) (w1 : Mat 2048 2048) (b1 : Vect 2048) (w2 : Mat 2048 2048) (b2 : Vect 2048)
    (w3 : Mat 2048 10) (b3 : Vect 10) : Mat 2048 10 :=
  fun j => (∑ n : Fin 2048, H2 x w1 b1 w2 b2 (ix2 (j 0) n) * w3 (ix2 n (j 1))) + b3 (ix1 (j 1))

theorem Y_apply (x : Mat 2048 2048) (w1 : Mat 2048 2048) (b1 : Vect 2048) (w2 : Mat 2048 2048) (b2 : Vect 2048)
    (w3 : Mat 2048 10) (b3 : Vect 10) (p : Fin 2048) (c : Fin 10) :
    Y x w1 b1 w2 b2 w3 b3 (ix2 p c) = (∑ n : Fin 2048, H2 x w1 b1 w2 b2 (ix2 p n) * w3 (ix2 n c)) + b3 (ix1 c) := rfl

/-- Hidden unit `n` of block `s`: blocks of 512 consecutive units. -/
def unit (s : Fin 4) (n : Fin 512) : Fin 2048 := ⟨s.val * 512 + n.val, by omega⟩

theorem unit_val (s : Fin 4) (n : Fin 512) : (unit s n).val = s.val * 512 + n.val := rfl

/-- The same output with the last contraction taken block by block: 4 partial products over 512 hidden units each,
    added up from the zero word, then the bias. -/
def Yblocks (x : Mat 2048 2048) (w1 : Mat 2048 2048) (b1 : Vect 2048) (w2 : Mat 2048 2048) (b2 : Vect 2048)
    (w3 : Mat 2048 10) (b3 : Vect 10) : Mat 2048 10 :=
  fun j => (zeroWord + ∑ s : Fin 4, ∑ n : Fin 512, H2 x w1 b1 w2 b2 (ix2 (j 0) (unit s n)) * w3 (ix2 (unit s n) (j 1)))
    + b3 (ix1 (j 1))

theorem Yblocks_apply (x : Mat 2048 2048) (w1 : Mat 2048 2048) (b1 : Vect 2048) (w2 : Mat 2048 2048) (b2 : Vect 2048)
    (w3 : Mat 2048 10) (b3 : Vect 10) (p : Fin 2048) (c : Fin 10) :
    Yblocks x w1 b1 w2 b2 w3 b3 (ix2 p c)
      = (zeroWord + ∑ s : Fin 4, ∑ n : Fin 512, H2 x w1 b1 w2 b2 (ix2 p (unit s n)) * w3 (ix2 (unit s n) c)) + b3 (ix1 c) := rfl

/-- The 4 partial products: entry (s, p, c) contracts the 512 hidden units of block `s` of  relu(h1 · w2 + b2)  against
    the matching rows of w3. -/
def partials (h1 : Mat 2048 2048) (w2 : Mat 2048 2048) (b2 : Mat 1 2048) (w3 : Mat 2048 10) :
    (⟨3, ![4, 2048, 10]⟩ : Shape).Idx → EReal :=
  fun i => ∑ n : Fin 512, hidden h1 w2 b2 (ix2 (i 1) (unit (i 0) n)) * w3 (ix2 (unit (i 0) n) (i 2))

theorem partials_apply (h1 : Mat 2048 2048) (w2 : Mat 2048 2048) (b2 : Mat 1 2048) (w3 : Mat 2048 10)
    (s : Fin 4) (p : Fin 2048) (c : Fin 10) :
    partials h1 w2 b2 w3 (ix3 s p c) = ∑ n : Fin 512, hidden h1 w2 b2 (ix2 p (unit s n)) * w3 (ix2 (unit s n) c) := rfl

/-- Four consecutive blocks of 512 terms are all 2048 terms. -/
theorem sum_units {β : Type*} [AddCommMonoid β] (f : Fin 2048 → β) :
    ∑ s : Fin 4, ∑ n : Fin 512, f (unit s n) = ∑ k : Fin 2048, f k := by
  let g : ℕ → β := fun k => if h : k < 2048 then f ⟨k, h⟩ else 0
  have e1 : ∀ (s : Fin 4) (n : Fin 512), f (unit s n) = g (s.val * 512 + n.val) := fun s n => by
    have h : s.val * 512 + n.val < 2048 := by omega
    show _ = dite _ _ _
    rw [dif_pos h]; rfl
  have e2 : ∀ k : Fin 2048, g k.val = f k := fun k => dif_pos k.isLt
  calc ∑ s : Fin 4, ∑ n : Fin 512, f (unit s n)
      = ∑ s : Fin 4, ∑ n : Fin 512, g (s.val * 512 + n.val) :=
        Finset.sum_congr rfl fun s _ => Finset.sum_congr rfl fun n _ => e1 s n
    _ = ∑ s ∈ Finset.range 4, ∑ n : Fin 512, g (s * 512 + n.val) :=
        Fin.sum_univ_eq_sum_range (fun s => ∑ n : Fin 512, g (s * 512 + n.val)) 4
    _ = ∑ k : Fin (4 * 512), g k.val := Cert.BlockSum.sum_blocks 4 512 g
    _ = ∑ k : Fin 2048, f k := Finset.sum_congr rfl fun k _ => e2 k

/-- Contracting block by block from zero is contracting all at once. -/
theorem Yblocks_eq_Y (x : Mat 2048 2048) (w1 : Mat 2048 2048) (b1 : Vect 2048) (w2 : Mat 2048 2048) (b2 : Vect 2048)
    (w3 : Mat 2048 10) (b3 : Vect 10) : Yblocks x w1 b1 w2 b2 w3 b3 = Y x w1 b1 w2 b2 w3 b3 := by
  funext j
  obtain ⟨p, c, rfl⟩ : ∃ (p : Fin 2048) (c : Fin 10), j = ix2 p c := ⟨j 0, j 1, eq_ix2 j⟩
  rw [Yblocks_apply, Y_apply, sum_units (fun k => H2 x w1 b1 w2 b2 (ix2 p k) * w3 (ix2 k c))]
  show Ideal.ofBits .f32 0x00000000#32 + _ + _ = _
  rw [Ideal.ofBits_zero_f32, zero_add]

end Cert.Mlp3

end
-- ==== Proof.KernelBody.lean ====
/-
  What the fused kernel's body stores, as a function of the blocks it loads: the affine output layer of two hidden
  layers. x0 is the block of input rows, x1/x2, x3/x4, x5/x6 the three layers' weights and bias rows.
-/
import proofs.«121058_g2000405920905475_pallasbulk_554_2_alg».proof.Proof.Gen.KernelIdeal.Skeleton
import proofs.«121058_g2000405920905475_pallasbulk_554_2_alg».proof.Proof.Spec
import Idealize.ShloMosaic.Lib.Pipeline.Value

noncomputable section

namespace Cert.KernelIdeal.Body

open Idealize.ShloMosaic Idealize.ShloMosaic.ValueIdx Cert.KernelIdeal Cert.KernelIdeal.Gen Cert.Mlp3 Cert.DenseLayer

theorem plainH : Cert.PlainDot.IsPlain dot_S256x2048_S2048x2048_S256x2048_1_0_0_1_n_n := ⟨rfl, rfl, rfl, rfl, rfl, rfl⟩
theorem plainO : Cert.PlainDot.IsPlain dot_S256x2048_S2048x128_S256x128_1_0_0_1_n_n := ⟨rfl, rfl, rfl, rfl, rfl, rfl⟩

/-- The stored value is  (relu(relu(x0·x1 + x2)·x3 + x4))·x5 + x6. -/
theorem pay_eq (x0 : Vec Ideal S256x2048 .f32) (x1 : Vec Ideal S2048x2048 .bf16) (x2 : Vec Ideal S1x2048 .f32)
    (x3 : Vec Ideal S2048x2048 .bf16) (x4 : Vec Ideal S1x2048 .f32) (x5 : Vec Ideal S2048x128 .bf16) (x6 : Vec Ideal S1x128 .f32) :
    k0_pay1 (F := Ideal) x0 x1 x2 x3 x4 x5 x6 = affine (hidden (hidden x0 x1 x2) x3 x4) x5 x6 := by
  unfold k0_pay1
  dsimp only
  rw [hidden_eq plainH, hidden_eq plainH, affine_eq plainO]
  simp only [shapeCast_self, truncf_eq]

end Cert.KernelIdeal.Body

end
-- ==== Proof.KernelBlocks.lean ====
/-
  The fused kernel's result array after the run, before the columns are cut back to 10.

  Grid point t handles rows 256·t … 256·t + 255: it loads that block of input rows and the three layers' whole weight and
  bias arrays, and writes back the same rows of the [2048, 128] result. A row of the network's output depends only on the
  same row of the input, so every point's block is a block of ONE function of the arrays the call finds (`G`), the 8
  blocks cover the rows, and the array ends holding `G`.
-/
import proofs.«121058_g2000405920905475_pallasbulk_554_2_alg».proof.Proof.Gen.KernelIdeal.Frame
import proofs.«121058_g2000405920905475_pallasbulk_554_2_alg».proof.Proof.KernelBody
import Idealize.ShloMosaic.Lib.Pipeline.Value

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.Mlp3 Cert.DenseLayer

variable (m : (ℓ : Loc nD τ sig) → Buf (Elt Ideal) ℓ)

theorem hz : (![0, 0] : Fin 2 → Nat) = fun _ => 0 := funext fun a => by fin_cases a <;> rfl

/-- The network over the arrays the call finds: input rows, then per layer the weights and the bias row; 128 output
    columns (the last layer's weights and bias as padded). -/
def G (c : Dev nD) : S2048x128.Idx → EReal :=
  affine (hidden (hidden (V m c main_arg0) (V m c main_call0_v0) (V m c main_call0_v6)) (V m c main_call0_v1) (V m c main_call0_v7))
    (V m c main_call0_v3) (V m c main_call0_v5)

/-- The printed index maps over the 8 points: the input rows' block moves with the output's, every other block stays at
    the origin, and the output's row block is the point's number. -/
theorem idx_facts : ∀ t : Fin cfg0.N,
    win0_0.index t (0 : Fin 2) = win0_7.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) = t.val :=
  (by decide +kernel : ∀ t : Fin grid0.N, _)

/-- Window 1's block is its whole array at every point. -/
theorem iblk1_eq (c : Dev nD) (t : Fin cfg0.N) : (iblk m c 1 t : Vec Ideal S2048x2048 .bf16) = V m c main_call0_v0 := by
  obtain ⟨e00, e01, e10, e11, e20, e21, e30, e31, e40, e41, e50, e51, e60, e61, e71, e70⟩ := idx_facts t
  funext y
  unfold iblk
  rw [View.read_apply]
  show V m c main_call0_v0 _ = V m c main_call0_v0 y
  refine congrArg _ (funext fun a => Fin.ext ?_)
  match a with
  | ⟨0, _⟩ => show win0_1.index t (0 : Fin 2) * 2048 + 1 * (y 0).val = (y 0).val; omega
  | ⟨1, _⟩ => show win0_1.index t (1 : Fin 2) * 2048 + 1 * (y 1).val = (y 1).val; omega

/-- Window 2's block is its whole array at every point. -/
theorem iblk2_eq (c : Dev nD) (t : Fin cfg0.N) : (iblk m c 2 t : Vec Ideal S1x2048 .f32) = V m c main_call0_v6 := by
  obtain ⟨e00, e01, e10, e11, e20, e21, e30, e31, e40, e41, e50, e51, e60, e61, e71, e70⟩ := idx_facts t
  funext y
  unfold iblk
  rw [View.read_apply]
  show V m c main_call0_v6 _ = V m c main_call0_v6 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 2048 + 1 * (y 1).val = (y 1).val; omega

/-- Window 3's block is its whole array at every point. -/
theorem iblk3_eq (c : Dev nD) (t : Fin cfg0.N) : (iblk m c 3 t : Vec Ideal S2048x2048 .bf16) = V m c main_call0_v1 := by
  obtain ⟨e00, e01, e10, e11, e20, e21, e30, e31, e40, e41, e50, e51, e60, e61, e71, e70⟩ := idx_facts t
  funext y
  unfold iblk
  rw [View.read_apply]
  show V m c main_call0_v1 _ = V m c main_call0_v1 y
  refine congrArg _ (funext fun a => Fin.ext ?_)
  match a with
  | ⟨0, _⟩ => show win0_3.index t (0 : Fin 2) * 2048 + 1 * (y 0).val = (y 0).val; omega
  | ⟨1, _⟩ => show win0_3.index t (1 : Fin 2) * 2048 + 1 * (y 1).val = (y 1).val; omega

/-- Window 4's block is its whole array at every point. -/
theorem iblk4_eq (c : Dev nD) (t : Fin cfg0.N) : (iblk m c 4 t : Vec Ideal S1x2048 .f32) = V m c main_call0_v7 := by
  obtain ⟨e00, e01, e10, e11, e20, e21, e30, e31, e40, e41, e50, e51, e60, e61, e71, e70⟩ := idx_facts t
  funext y
  unfold iblk
  rw [View.read_apply]
  show V m c main_call0_v7 _ = V m c main_call0_v7 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 2048 + 1 * (y 1).val = (y 1).val; omega

/-- Window 5's block is its whole array at every point. -/
theorem iblk5_eq (c : Dev nD) (t : Fin cfg0.N) : (iblk m c 5 t : Vec Ideal S2048x128 .bf16) = V m c main_call0_v3 := by
  obtain ⟨e00, e01, e10, e11, e20, e21, e30, e31, e40, e41, e50, e51, e60, e61, e71, e70⟩ := idx_facts t
  funext y
  unfold iblk
  rw [View.read_apply]
  show V m c main_call0_v3 _ = V m c main_call0_v3 y
  refine congrArg _ (funext fun a => Fin.ext ?_)
  match a with
  | ⟨0, _⟩ => show win0_5.index t (0 : Fin 2) * 2048 + 1 * (y 0).val = (y 0).val; omega
  | ⟨1, _⟩ => show win0_5.index t (1 : Fin 2) * 128 + 1 * (y 1).val = (y 1).val; omega

/-- Window 6's block is its whole array at every point. -/
theorem iblk6_eq (c : Dev nD) (t : Fin cfg0.N) : (iblk m c 6 t : Vec Ideal S1x128 .f32) = V m c main_call0_v5 := by
  obtain ⟨e00, e01, e10, e11, e20, e21, e30, e31, e40, e41, e50, e51, e60, e61, e71, e70⟩ := idx_facts t
  funext y
  unfold iblk
  rw [View.read_apply]
  show V m c main_call0_v5 _ = V m c main_call0_v5 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- The input rows' block at point t: row p of it is row (block index · 256 + p) of the input. -/
theorem iblk0_apply (c : Dev nD) (t : Fin cfg0.N) (p : Fin 256) (q : Fin 2048) (P : Fin 2048)
    (hP : P.val = win0_7.index t (0 : Fin 2) * 256 + p.val) :
    (iblk m c 0 t : Vec Ideal S256x2048 .f32) (ix2 p q) = (V m c main_arg0 : S2048x2048.Idx → EReal) (ix2 P q) := by
  obtain ⟨e00, e01, e10, e11, e20, e21, e30, e31, e40, e41, e50, e51, e60, e61, e71, e70⟩ := idx_facts t
  unfold iblk
  rw [View.read_apply]
  show V m c main_arg0 _ = V m c main_arg0 _
  refine congrArg _ (funext fun a => Fin.ext ?_)
  match a with
  | ⟨0, _⟩ => show win0_0.index t (0 : Fin 2) * 256 + 1 * p.val = P.val; omega
  | ⟨1, _⟩ => show win0_0.index t (1 : Fin 2) * 2048 + 1 * q.val = q.val; omega

/-- What point t writes back is block t of `G`. -/
theorem flushed_eq (c : Dev nD) (t : Fin cfg0.N) :
    (dats m 0 c).flushed 7 t = ((cfg0.win 7).blk t).view.read (Elt Ideal) (G m c) := by
  show (cfg0.win 7).cut (grid0.coords t) ((dats m 0 c).after 7 t) = _
  rw [after0_7]
  unfold out0_7
  rw [View.canon_unit_zero hz]
  simp only [View.ld_unit_zero (S := S256x2048) hz, View.ld_unit_zero (S := S2048x2048) hz, View.ld_unit_zero (S := S1x2048) hz,
    View.ld_unit_zero (S := S2048x128) hz, View.ld_unit_zero (S := S1x128) hz]
  rw [Cert.KernelIdeal.Body.pay_eq, iblk1_eq, iblk2_eq, iblk3_eq, iblk4_eq, iblk5_eq, iblk6_eq]
  funext j
  obtain ⟨p, cc, rfl⟩ : ∃ (p : Fin 256) (cc : Fin 128), j = ix2 p cc := ⟨j 0, j 1, eq_ix2 j⟩
  obtain ⟨e00, e01, e10, e11, e20, e21, e30, e31, e40, e41, e50, e51, e60, e61, e71, e70⟩ := idx_facts t
  have hN : cfg0.N = 8 := N_0
  have ht : t.val < 8 := hN ▸ t.isLt
  have hP : win0_7.index t (0 : Fin 2) * 256 + p.val < 2048 := by omega
  refine (network_rows (iblk m c 0 t : Vec Ideal S256x2048 .f32) (V m c main_arg0) (V m c main_call0_v0) (V m c main_call0_v6)
    (V m c main_call0_v1) (V m c main_call0_v7) (V m c main_call0_v3) (V m c main_call0_v5) p ⟨_, hP⟩
    (fun q => iblk0_apply m c t p q ⟨_, hP⟩ rfl) cc).trans ?_
  rw [View.read_apply]
  show G m c (ix2 ⟨_, hP⟩ cc) = G m c _
  refine congrArg _ (funext fun a => Fin.ext ?_)
  match a with
  | ⟨0, _⟩ => show win0_7.index t (0 : Fin 2) * 256 + p.val = win0_7.index t (0 : Fin 2) * 256 + 1 * p.val; omega
  | ⟨1, _⟩ => show cc.val = win0_7.index t (1 : Fin 2) * 128 + 1 * cc.val; omega

/-- An index of the array is in point t's block iff each coordinate is in the block's range on its axis. -/
theorem mem_blk (t : Fin cfg0.N) (i : S2048x128.Idx) :
    i ∈ ((cfg0.win 7).blk t).view.set ↔ ∀ a : Fin 2, win0_7.index t a * S256x128.size a ≤ (i a).val ∧ (i a).val < win0_7.index t a * S256x128.size a + S256x128.size a := by
  show i ∈ ((View.whole main_call0_v8).slice (win0_7.rect t)).set ↔ _
  rw [View.set_slice_whole, Rect.mem_set_unit]
  exact Iff.rfl

/-- Row r is in the block of point r / 256. -/
theorem cover (i : S2048x128.Idx) : ∃ t : Fin cfg0.N, (cfg0.win 7).flush t = true ∧ i ∈ ((cfg0.win 7).blk t).view.set := by
  have hi0 : (i 0).val < 2048 := (i 0).isLt
  have hi1 : (i 1).val < 128 := (i 1).isLt
  have hN : cfg0.N = 8 := N_0
  have hlt : (i 0).val / 256 < cfg0.N := by rw [hN]; omega
  obtain ⟨e00, e01, e10, e11, e20, e21, e30, e31, e40, e41, e50, e51, e60, e61, e71, e70⟩ := idx_facts ⟨(i 0).val / 256, hlt⟩
  refine ⟨⟨(i 0).val / 256, hlt⟩, flush0_7 _, ?_⟩
  rw [mem_blk]
  intro a
  match a with
  | ⟨0, _⟩ =>
    show win0_7.index ⟨(i 0).val / 256, hlt⟩ (0 : Fin 2) * 256 ≤ (i 0).val ∧ (i 0).val < win0_7.index ⟨(i 0).val / 256, hlt⟩ (0 : Fin 2) * 256 + 256
    rw [e70]
    show (i 0).val / 256 * 256 ≤ (i 0).val ∧ (i 0).val < (i 0).val / 256 * 256 + 256
    omega
  | ⟨1, _⟩ =>
    show win0_7.index ⟨(i 0).val / 256, hlt⟩ (1 : Fin 2) * 128 ≤ (i 1).val ∧ (i 1).val < win0_7.index ⟨(i 0).val / 256, hlt⟩ (1 : Fin 2) * 128 + 128
    rw [e71]
    omega

/-- The result array after the run. -/
theorem final (c : Dev nD) : (dats m 0 c).arrAt 7 cfg0.N = G m c :=
  (dats m 0 c).arrAt_eq_of_cover 7 (G m c) (fun t _ => flushed_eq m c t) (cover)

end Cert.KernelIdeal.Blocks

end
-- ==== Proof.KernelValue.lean ====
/-
  The fused kernel's run, read: its result is the network's output  Y  of the seven argument arrays.

  Before the call the host only re-lays the arguments: the weights change float format (the identity on the extended
  reals), the two hidden biases become 1×2048 rows, the last layer's weights and bias are padded with zeros from 10 to
  128 columns (the bias then laid out as a 1×128 row). After the call the host keeps columns 0 … 9 of the [2048, 128]
  array. A kept column c < 10 reads the last layer's weights and bias inside the padding's operand, so entry (p, c) of
  the result is  Σ_n h2[p,n] · w3[n,c] + b3[c].
-/
import proofs.«121058_g2000405920905475_pallasbulk_554_2_alg».proof.Proof.Gen.KernelIdeal.Frame
import proofs.«121058_g2000405920905475_pallasbulk_554_2_alg».proof.Proof.KernelBlocks
import Idealize.ShloMosaic.Lib.Pipeline.Value
import Idealize.ShloMosaic.Lib.ValueLayout
import Idealize.ShloMosaic.Lib.StableHlo.Run
import Idealize.ShloMosaic.Lib.KernelVsHost

noncomputable section

open scoped BigOperators

namespace Cert.KernelIdeal.Whole

open Idealize.ShloMosaic Idealize.ShloMosaic.TcCoe Idealize.ShloMosaic.ValueIdx Idealize.SL.Sem
open Cert.KernelIdeal Cert.KernelIdeal.Gen Cert.Mlp3 Cert.DenseLayer

variable (m : (ℓ : Loc nD τ sig) → Buf (Elt Ideal) ℓ) (ρ : Dev nD → PrngReg)

/-! ## The arrays the call finds, from the arguments -/

theorem V_x (c : Dev nD) : (V m c main_arg0 : S2048x2048.Idx → EReal) = (m ((c : Thread nD τ).loc main_arg0)) := V_main_arg0 m c

theorem V_w1 (c : Dev nD) : (V m c main_call0_v0 : S2048x2048.Idx → EReal) = (m ((c : Thread nD τ).loc main_arg1)) := by
  show StableHlo.after hostOps0 (fun b => m (c, b)) (Proc.devRef .tc main_call0_v0) = _
  after_results
  rfl

theorem V_w2 (c : Dev nD) : (V m c main_call0_v1 : S2048x2048.Idx → EReal) = (m ((c : Thread nD τ).loc main_arg3)) := by
  show StableHlo.after hostOps0 (fun b => m (c, b)) (Proc.devRef .tc main_call0_v1) = _
  after_results
  rfl

theorem V_b1 (c : Dev nD) : (V m c main_call0_v6 : S1x2048.Idx → EReal) = row (m ((c : Thread nD τ).loc main_arg2)) := by
  have e : (V m c main_call0_v6 : S1x2048.Idx → EReal) = shapeCast S1x2048 (m ((c : Thread nD τ).loc main_arg2)) shapeCasts_S2048_S1x2048 := by
    show StableHlo.after hostOps0 (fun b => m (c, b)) (Proc.devRef .tc main_call0_v6) = _
    after_results
    rfl
  rw [e]
  exact reshape_row _ _

theorem V_b2 (c : Dev nD) : (V m c main_call0_v7 : S1x2048.Idx → EReal) = row (m ((c : Thread nD τ).loc main_arg4)) := by
  have e : (V m c main_call0_v7 : S1x2048.Idx → EReal) = shapeCast S1x2048 (m ((c : Thread nD τ).loc main_arg4)) shapeCasts_S2048_S1x2048 := by
    show StableHlo.after hostOps0 (fun b => m (c, b)) (Proc.devRef .tc main_call0_v7) = _
    after_results
    rfl
  rw [e]
  exact reshape_row _ _

/-- The padded last-layer weights at a column inside the operand. -/
theorem V_w3_apply (c : Dev nD) (n : Fin 2048) (o : Fin 10) (o' : Fin 128) (ho : o'.val = o.val) :
    (V m c main_call0_v3 : S2048x128.Idx → EReal) (ix2 n o') = ((m ((c : Thread nD τ).loc main_arg5)) : S2048x10.Idx → EReal) (ix2 n o) := by
  have e : (V m c main_call0_v3 : S2048x128.Idx → EReal)
      = pad S2048x128 ![0, 0] ![0, 118] ![0, 0] (truncf (F := Ideal) .bf16 (m ((c : Thread nD τ).loc main_arg5)) bitsLt_bf16_f32)
          (sitofp (F := Ideal) .bf16 (constantI S_ 32 0#32)) pads_S2048x10_S2048x128_000_01180 h_S_ := by
    show StableHlo.after hostOps0 (fun b => m (c, b)) (Proc.devRef .tc main_call0_v3) = _
    after_results
    rfl
  rw [e]
  refine (pad_apply_of_inside _ _ _ _ _ _ _ (ix2 n o') (ix2 n o) fun a => ?_).trans rfl
  match a with
  | ⟨0, _⟩ => show n.val = 0 + n.val * (0 + 1); omega
  | ⟨1, _⟩ => show o'.val = 0 + o.val * (0 + 1); omega

/-- The padded last-layer bias row at a column inside the operand. -/
theorem V_b3_apply (c : Dev nD) (u : Fin 1) (o : Fin 10) (o' : Fin 128) (ho : o'.val = o.val) :
    (V m c main_call0_v5 : S1x128.Idx → EReal) (ix2 u o') = ((m ((c : Thread nD τ).loc main_arg6)) : S10.Idx → EReal) (ix1 o) := by
  have e : (V m c main_call0_v5 : S1x128.Idx → EReal)
      = shapeCast S1x128 (pad S128 ![0] ![118] ![0] (m ((c : Thread nD τ).loc main_arg6)) (sitofp (F := Ideal) .f32 (constantI S_ 32 0#32)) pads_S10_S128_01180 h_S_)
          shapeCasts_S128_S1x128 := by
    show StableHlo.after hostOps0 (fun b => m (c, b)) (Proc.devRef .tc main_call0_v5) = _
    after_results
    rfl
  rw [e, shapeCast_a_1a_apply]
  refine pad_apply_of_inside _ _ _ _ _ _ _ (ix1 o') (ix1 o) fun a => ?_
  match a with
  | ⟨0, _⟩ => show o'.val = 0 + o.val * (0 + 1); omega

/-! ## The result -/

/-- Columns 0 … 9 of the call's array are the network's output. -/
theorem kept_columns (c : Dev nD) :
    extractStridedSlice S2048x10 ![0, 0] (Cert.KernelIdeal.Blocks.G m c) slices_S2048x128_S2048x10_0_0
      = Y (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext j
  obtain ⟨p, o, rfl⟩ : ∃ (p : Fin 2048) (o : Fin 10), j = ix2 p o := ⟨j 0, j 1, eq_ix2 j⟩
  have ho : o.val < 128 := by omega
  rw [slice2_axis1_apply 0 _ _ p o ⟨o.val, ho⟩ (Nat.zero_add _).symm, Y_apply]
  unfold Cert.KernelIdeal.Blocks.G H2
  rw [affine_apply, V_x, V_w1, V_b1, V_w2, V_b2, V_b3_apply m c 0 o ⟨o.val, ho⟩ rfl]
  exact congrArg (· + _) (Finset.sum_congr rfl fun n _ => by rw [V_w3_apply m c n o ⟨o.val, ho⟩ rfl])

/-- What the host leaves in the result after the call: the kept columns of the call's array. -/
theorem tail_eq (c : Dev nD) :
    Pipeline.afterTail₀ cfgs (dats m) 0 (V0 m) [hostOps1] c main_v0
      = extractStridedSlice S2048x10 ![0, 0] (Cert.KernelIdeal.Blocks.G m c) slices_S2048x128_S2048x10_0_0 := by
  unfold Pipeline.afterTail₀
  show StableHlo.after hostOps1 _ (Proc.devRef .tc main_v0) = _
  after_results
  show extractStridedSlice S2048x10 ![0, 0] (Pipeline.withArrays spec0 c (V0 m c) (fun w => (dats m 0 c).arrAt w cfg0.N)
    (Proc.devRef .tc (Pipeline.arrRef spec0 7))) slices_S2048x128_S2048x10_0_0 = _
  rw [Pipeline.withArrays_arr spec0 launch0.win.arr_inj c _ _ 7, Cert.KernelIdeal.Blocks.final]

/-- THE RUN: every weakly fair execution terminates with the result at  Y  of the arguments, the arguments unchanged. -/
theorem run : θ_run defs (onTc (τ := τ) (main (F := Ideal))) ⟨m, fun _ => 0, ρ⟩ (fun r => ∀ c : Dev nD,
      r.2.mem ((c.tc : Thread nD τ).loc main_v0) = Y (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v0 (Pipeline.mem_restRefs_of main_v0 (by decide) (by decide))).trans ((tail_eq m c).trans (kept_columns m c)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Whole

end
-- ==== Proof.RefRun.lean ====
/-
  The reference's run, read at every buffer: after @main's five segments (host lines, the first call, a host line, the
  second call, the closing host lines) each unscoped buffer holds what the fold of the segments leaves in it.
-/
import proofs.«121058_g2000405920905475_pallasbulk_554_2_alg».proof.Proof.Gen.ReferenceIdeal.Frame

noncomputable section

namespace Cert.ReferenceIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and in every final state each unscoped buffer of each core holds
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.ReferenceIdeal.Whole

end
-- ==== Proof.RefValue.lean ====
/-
  The reference's result, read through @main's fold: the block-by-block output  Yblocks  of the seven argument arrays.

  The host lines only re-lay arguments (a hidden bias becomes a 1×2048 row) and, at the end, add the 4 partial products
  up from the zero word and add the output bias repeated down the rows. So: the first call finds the arguments and
  leaves the first hidden layer; the second finds that layer and the arguments and leaves the 4 partial products; the
  closing lines leave  (0 + Σ_s partial_s) + b3.  What each call leaves in its result array is taken here as a
  hypothesis about the call alone, at any entry contents (`h0`, `h1`).
-/
import proofs.«121058_g2000405920905475_pallasbulk_554_2_alg».proof.Proof.RefRun
import proofs.«121058_g2000405920905475_pallasbulk_554_2_alg».proof.Proof.Spec
import Idealize.ShloMosaic.Lib.Pipeline.Value
import Idealize.ShloMosaic.Lib.ValueLayout
import Idealize.ShloMosaic.Lib.StableHlo.Run
import Idealize.ShloMosaic.Lib.IdealHost

noncomputable section

open scoped BigOperators

namespace Cert.ReferenceIdeal.Whole

open Idealize.ShloMosaic Idealize.ShloMosaic.TcCoe Idealize.ShloMosaic.ValueIdx Idealize.SL.Sem
open Cert.ReferenceIdeal Cert.ReferenceIdeal.Gen Cert.Mlp3 Cert.DenseLayer

variable (m : (ℓ : Loc nD τ sig) → Buf (Elt Ideal) ℓ) (ρ : Dev nD → PrngReg)

/-! ## An argument's buffer at each boundary is the argument -/

theorem W1_arg0 (c : Dev nD) : W1 m ρ c (Proc.devRef .tc main_arg0) = (m ((c : Thread nD τ).loc main_arg0)) := by
  show StableHlo.after hostOps0 (W0 m ρ c) (Proc.devRef .tc main_arg0) = _
  after_results
theorem W1_arg1 (c : Dev nD) : W1 m ρ c (Proc.devRef .tc main_arg1) = (m ((c : Thread nD τ).loc main_arg1)) := by
  show StableHlo.after hostOps0 (W0 m ρ c) (Proc.devRef .tc main_arg1) = _
  after_results
theorem W1_arg2 (c : Dev nD) : W1 m ρ c (Proc.devRef .tc main_arg2) = (m ((c : Thread nD τ).loc main_arg2)) := by
  show StableHlo.after hostOps0 (W0 m ρ c) (Proc.devRef .tc main_arg2) = _
  after_results
theorem W1_arg3 (c : Dev nD) : W1 m ρ c (Proc.devRef .tc main_arg3) = (m ((c : Thread nD τ).loc main_arg3)) := by
  show StableHlo.after hostOps0 (W0 m ρ c) (Proc.devRef .tc main_arg3) = _
  after_results
theorem W1_arg4 (c : Dev nD) : W1 m ρ c (Proc.devRef .tc main_arg4) = (m ((c : Thread nD τ).loc main_arg4)) := by
  show StableHlo.after hostOps0 (W0 m ρ c) (Proc.devRef .tc main_arg4) = _
  after_results
theorem W1_arg5 (c : Dev nD) : W1 m ρ c (Proc.devRef .tc main_arg5) = (m ((c : Thread nD τ).loc main_arg5)) := by
  show StableHlo.after hostOps0 (W0 m ρ c) (Proc.devRef .tc main_arg5) = _
  after_results
theorem W1_arg6 (c : Dev nD) : W1 m ρ c (Proc.devRef .tc main_arg6) = (m ((c : Thread nD τ).loc main_arg6)) := by
  show StableHlo.after hostOps0 (W0 m ρ c) (Proc.devRef .tc main_arg6) = _
  after_results

theorem W2_arg3 (c : Dev nD) : W2 m ρ c (Proc.devRef .tc main_arg3) = (m ((c : Thread nD τ).loc main_arg3)) :=
  (W2_of_ne m ρ c main_arg3 (by decide)).trans (W1_arg3 m ρ c)
theorem W2_arg4 (c : Dev nD) : W2 m ρ c (Proc.devRef .tc main_arg4) = (m ((c : Thread nD τ).loc main_arg4)) :=
  (W2_of_ne m ρ c main_arg4 (by decide)).trans (W1_arg4 m ρ c)
theorem W2_arg5 (c : Dev nD) : W2 m ρ c (Proc.devRef .tc main_arg5) = (m ((c : Thread nD τ).loc main_arg5)) :=
  (W2_of_ne m ρ c main_arg5 (by decide)).trans (W1_arg5 m ρ c)
theorem W2_arg6 (c : Dev nD) : W2 m ρ c (Proc.devRef .tc main_arg6) = (m ((c : Thread nD τ).loc main_arg6)) :=
  (W2_of_ne m ρ c main_arg6 (by decide)).trans (W1_arg6 m ρ c)

theorem W3_arg3 (c : Dev nD) : W3 m ρ c (Proc.devRef .tc main_arg3) = (m ((c : Thread nD τ).loc main_arg3)) := by
  show StableHlo.after hostOps1 (W2 m ρ c) (Proc.devRef .tc main_arg3) = _
  after_results
  exact W2_arg3 m ρ c
theorem W3_arg5 (c : Dev nD) : W3 m ρ c (Proc.devRef .tc main_arg5) = (m ((c : Thread nD τ).loc main_arg5)) := by
  show StableHlo.after hostOps1 (W2 m ρ c) (Proc.devRef .tc main_arg5) = _
  after_results
  exact W2_arg5 m ρ c
theorem W3_arg6 (c : Dev nD) : W3 m ρ c (Proc.devRef .tc main_arg6) = (m ((c : Thread nD τ).loc main_arg6)) := by
  show StableHlo.after hostOps1 (W2 m ρ c) (Proc.devRef .tc main_arg6) = _
  after_results
  exact W2_arg6 m ρ c

theorem W4_arg6 (c : Dev nD) : W4 m ρ c (Proc.devRef .tc main_arg6) = (m ((c : Thread nD τ).loc main_arg6)) :=
  (W4_of_ne m ρ c main_arg6 (by decide)).trans (W3_arg6 m ρ c)

/-! ## The first call -/

theorem V1_x (c : Dev nD) : (V1 m ρ c main_arg0 : S2048x2048.Idx → EReal) = (m ((c : Thread nD τ).loc main_arg0)) := W1_arg0 m ρ c
theorem V1_w1 (c : Dev nD) : (V1 m ρ c main_arg1 : S2048x2048.Idx → EReal) = (m ((c : Thread nD τ).loc main_arg1)) := W1_arg1 m ρ c
theorem V1_b1 (c : Dev nD) : (V1 m ρ c main_call0_v0 : S1x2048.Idx → EReal) = row (m ((c : Thread nD τ).loc main_arg2)) := by
  have e : (V1 m ρ c main_call0_v0 : S1x2048.Idx → EReal) = shapeCast S1x2048 (m ((c : Thread nD τ).loc main_arg2)) shapeCasts_S2048_S1x2048 := by
    show StableHlo.after hostOps0 (W0 m ρ c) (Proc.devRef .tc main_call0_v0) = _
    after_results
    rfl
  rw [e]
  exact reshape_row _ _

/-- The first call's result array: the first hidden layer of the arguments. -/
theorem first_result (h0 : (∀ (V : (c : Dev nD) → (b : Ref sig .tc) → Buf (Elt Ideal) ((c : Thread nD τ).loc b)) (c : Dev nD),
      (dat0 V c).arrAt 3 cfg0.N = (hidden (V c main_arg0) (V c main_arg1) (V c main_call0_v0) : S2048x2048.Idx → EReal))) (c : Dev nD) :
    (W2 m ρ c (Proc.devRef .tc main_call0_v1) : S2048x2048.Idx → EReal) = (hidden (m ((c : Thread nD τ).loc main_arg0)) (m ((c : Thread nD τ).loc main_arg1)) (row (m ((c : Thread nD τ).loc main_arg2)))) :=
  (W2_arr m ρ c 3).trans ((h0 (V1 m ρ) c).trans (by rw [V1_x, V1_w1, V1_b1]))

/-! ## The second call -/

theorem V3_h1 (h0 : (∀ (V : (c : Dev nD) → (b : Ref sig .tc) → Buf (Elt Ideal) ((c : Thread nD τ).loc b)) (c : Dev nD),
      (dat0 V c).arrAt 3 cfg0.N = (hidden (V c main_arg0) (V c main_arg1) (V c main_call0_v0) : S2048x2048.Idx → EReal))) (c : Dev nD) :
    (V3 m ρ c main_call0_v1 : S2048x2048.Idx → EReal) = (hidden (m ((c : Thread nD τ).loc main_arg0)) (m ((c : Thread nD τ).loc main_arg1)) (row (m ((c : Thread nD τ).loc main_arg2)))) := by
  show StableHlo.after hostOps1 (W2 m ρ c) (Proc.devRef .tc main_call0_v1) = _
  after_results
  exact first_result m ρ h0 c
theorem V3_w2 (c : Dev nD) : (V3 m ρ c main_arg3 : S2048x2048.Idx → EReal) = (m ((c : Thread nD τ).loc main_arg3)) := W3_arg3 m ρ c
theorem V3_w3 (c : Dev nD) : (V3 m ρ c main_arg5 : S2048x10.Idx → EReal) = (m ((c : Thread nD τ).loc main_arg5)) := W3_arg5 m ρ c
theorem V3_b2 (c : Dev nD) : (V3 m ρ c main_call0_v2 : S1x2048.Idx → EReal) = row (m ((c : Thread nD τ).loc main_arg4)) := by
  have e : (V3 m ρ c main_call0_v2 : S1x2048.Idx → EReal)
      = shapeCast S1x2048 (W2 m ρ c (Proc.devRef .tc main_arg4)) shapeCasts_S2048_S1x2048 := by
    show StableHlo.after hostOps1 (W2 m ρ c) (Proc.devRef .tc main_call0_v2) = _
    after_results
    rfl
  rw [e, W2_arg4]
  exact reshape_row _ _

/-- The second call's result array: the 4 partial products. -/
theorem second_result (h0 : (∀ (V : (c : Dev nD) → (b : Ref sig .tc) → Buf (Elt Ideal) ((c : Thread nD τ).loc b)) (c : Dev nD),
      (dat0 V c).arrAt 3 cfg0.N = (hidden (V c main_arg0) (V c main_arg1) (V c main_call0_v0) : S2048x2048.Idx → EReal))) (h1 : (∀ (V : (c : Dev nD) → (b : Ref sig .tc) → Buf (Elt Ideal) ((c : Thread nD τ).loc b)) (c : Dev nD),
      (dat1 V c).arrAt 4 cfg1.N = (partials (V c main_call0_v1) (V c main_arg3) (V c main_call0_v2) (V c main_arg5) : S4x2048x10.Idx → EReal))) (c : Dev nD) :
    (W4 m ρ c (Proc.devRef .tc main_call0_v3) : S4x2048x10.Idx → EReal)
      = partials (hidden (m ((c : Thread nD τ).loc main_arg0)) (m ((c : Thread nD τ).loc main_arg1)) (row (m ((c : Thread nD τ).loc main_arg2)))) (m ((c : Thread nD τ).loc main_arg3)) (row (m ((c : Thread nD τ).loc main_arg4))) (m ((c : Thread nD τ).loc main_arg5)) :=
  (W4_arr m ρ c 4).trans ((h1 (V3 m ρ) c).trans (by rw [V3_h1 m ρ h0, V3_w2, V3_b2, V3_w3]))

/-! ## The closing host lines -/

/-- The result: the partial products added up from the zero word, plus the output bias. -/
theorem result_eq (h0 : (∀ (V : (c : Dev nD) → (b : Ref sig .tc) → Buf (Elt Ideal) ((c : Thread nD τ).loc b)) (c : Dev nD),
      (dat0 V c).arrAt 3 cfg0.N = (hidden (V c main_arg0) (V c main_arg1) (V c main_call0_v0) : S2048x2048.Idx → EReal))) (h1 : (∀ (V : (c : Dev nD) → (b : Ref sig .tc) → Buf (Elt Ideal) ((c : Thread nD τ).loc b)) (c : Dev nD),
      (dat1 V c).arrAt 4 cfg1.N = (partials (V c main_call0_v1) (V c main_arg3) (V c main_call0_v2) (V c main_arg5) : S4x2048x10.Idx → EReal))) (c : Dev nD) :
    (W5 m ρ c (Proc.devRef .tc main_v0) : S2048x10.Idx → EReal)
      = Yblocks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e : (W5 m ρ c (Proc.devRef .tc main_v0) : S2048x10.Idx → EReal)
      = addf (Host.reduceAdd (F := Ideal) (W4 m ρ c (Proc.devRef .tc main_call0_v3)) (constant (F := Ideal) S_ .f32 0x00000000#32)
            reducesTo_S4x2048x10_S2048x10_d0 h_S_)
          (broadcastInDim S2048x10 ![0, 1] bcast_S1x10_S2048x10_0_1
            (shapeCast S1x10 (W4 m ρ c (Proc.devRef .tc main_arg6)) shapeCasts_S10_S1x10)) := by
    show StableHlo.after hostOps2 (W4 m ρ c) (Proc.devRef .tc main_v0) = _
    after_results
    rfl
  rw [e, second_result m ρ h0 h1, W4_arg6]
  funext j
  obtain ⟨p, o, rfl⟩ : ∃ (p : Fin 2048) (o : Fin 10), j = ix2 p o := ⟨j 0, j 1, eq_ix2 j⟩
  have hR : S4x2048x10.Reduces [0] S2048x10 := by decide
  have hl : ∀ k : Fin 4, hR.lift (ix2 p o) k = ix3 k p o := fun k => funext fun a => Fin.ext (by
    match a with
    | ⟨0, _⟩ => rfl
    | ⟨1, _⟩ => rfl
    | ⟨2, _⟩ => rfl)
  rw [addf_apply, hostReduceAdd_apply, Ideal.hostReduceAdd_single _ hR, Yblocks_apply,
    broadcastInDim_apply ![0, 1] _ _ (ix2 p o) (ix2 (0 : Fin 1) o) (fun a => by
      match a with
      | ⟨0, _⟩ => show (0 : ℕ) = if (1 : ℕ) = 1 then 0 else _; rw [if_pos rfl]
      | ⟨1, _⟩ => show o.val = if (10 : ℕ) = 1 then 0 else o.val; rw [if_neg (by decide)]),
    shapeCast_a_1a_apply]
  refine congrArg (· + _) (congrArg (zeroWord + ·) ?_)
  show ∑ k : Fin 4, partials _ _ _ _ (hR.lift (ix2 p o) k) = _
  exact Finset.sum_congr rfl fun k _ => by rw [hl k, partials_apply]; rfl

/-- THE RUN: every weakly fair execution terminates with the result at  Yblocks  of the arguments, the arguments
    unchanged. -/
theorem run_of (h0 : (∀ (V : (c : Dev nD) → (b : Ref sig .tc) → Buf (Elt Ideal) ((c : Thread nD τ).loc b)) (c : Dev nD),
      (dat0 V c).arrAt 3 cfg0.N = (hidden (V c main_arg0) (V c main_arg1) (V c main_call0_v0) : S2048x2048.Idx → EReal))) (h1 : (∀ (V : (c : Dev nD) → (b : Ref sig .tc) → Buf (Elt Ideal) ((c : Thread nD τ).loc b)) (c : Dev nD),
      (dat1 V c).arrAt 4 cfg1.N = (partials (V c main_call0_v1) (V c main_arg3) (V c main_call0_v2) (V c main_arg5) : S4x2048x10.Idx → EReal))) :
    θ_run defs (onTc (τ := τ) (main (F := Ideal))) ⟨m, fun _ => 0, ρ⟩ (fun r => ∀ c : Dev nD,
      r.2.mem ((c.tc : Thread nD τ).loc main_v0) = Yblocks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v0 (by decide))).trans (result_eq m ρ h0 h1 c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩)
    (run_all m ρ)

end Cert.ReferenceIdeal.Whole

end
-- ==== Proof.RefLayer0.lean ====
/-
  The reference's first call: the first hidden layer, computed a block of 512 columns at a time.

  The call runs over 4 points. Point t reads all of x (2048×2048), columns 512·t … 512·t + 511 of w1 and of the bias
  row, and writes  relu(x · w1 + b1)  restricted to those columns into the same columns of the result. Entry (p, N) of a
  hidden layer depends only on row p of x, column N of w1 and entry N of the bias row, so the block computed from the
  column blocks is the block of the layer computed from the whole arrays. The 4 column blocks tile the result (column N
  lies in block N / 512), so after the last point the result array is the whole layer.
-/
import proofs.«121058_g2000405920905475_pallasbulk_554_2_alg».proof.Proof.Gen.ReferenceIdeal.Frame
import proofs.«121058_g2000405920905475_pallasbulk_554_2_alg».proof.Proof.Spec
import Idealize.ShloMosaic.Lib.Pipeline.Value

noncomputable section

namespace Cert.ReferenceIdeal.Layers

open Idealize.ShloMosaic Idealize.ShloMosaic.TcCoe Idealize.ShloMosaic.ValueIdx Idealize.SL.Sem
open Cert.ReferenceIdeal Cert.ReferenceIdeal.Gen Cert.Mlp3 Cert.DenseLayer
open Idealize.ShloMosaic.Pipeline (Dat)

variable (V : (c : Dev nD) → (b : Ref sig .tc) → Buf (Elt Ideal) ((c : Thread nD τ).loc b))

/-- The offsets (0, 0), as a function. -/
theorem zero2 : (![0, 0] : Fin 2 → Nat) = fun _ => 0 := funext fun a => by fin_cases a <;> rfl

/-- The product  [2048, 2048] · [2048, 512]  contracts the left operand's columns against the right operand's rows,
    with no batch axes. -/
theorem plain0 : Cert.PlainDot.IsPlain dot_S2048x2048_S2048x512_S2048x512_1_0_0_1_n_n := ⟨rfl, rfl, rfl, rfl, rfl, rfl⟩

/-- What the body stores is  relu(x0 · x1 + x2): the hidden layer of the blocks it loads. -/
theorem body0_eq (x0 : Vec Ideal S2048x2048 .f32) (x1 : Vec Ideal S2048x512 .f32) (x2 : Vec Ideal S1x512 .f32) :
    k0_pay1 (F := Ideal) x0 x1 x2 = hidden x0 x1 x2 := by
  unfold k0_pay1
  dsimp only
  rw [hidden_eq plain0]
  simp only [shapeCast_self]

/-- The block each window is on at point t: x always at block (0, 0); w1, the bias row and the result at block (0, t);
    and there are 4 points. -/
theorem points0 : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val ∧ t.val < 4 :=
  (by decide +kernel : ∀ t : Fin grid0.N, _)

/-- The block of x at any point is all of x. -/
theorem rows0 (c : Dev nD) (t : Fin cfg0.N) (p q : Fin 2048) :
    (iblk0 V c 0 t : Vec Ideal S2048x2048 .f32) (ix2 p q) = (V c main_arg0 : S2048x2048.Idx → EReal) (ix2 p q) := by
  obtain ⟨e0, e1, -⟩ := points0 t
  unfold iblk0
  rw [View.read_apply]
  show V c main_arg0 _ = V c main_arg0 _
  congr 1
  funext a
  apply Fin.ext
  match a with
  | ⟨0, _⟩ => show win0_0.index t (0 : Fin 2) * 2048 + 1 * p.val = p.val; rw [e0]; omega
  | ⟨1, _⟩ => show win0_0.index t (1 : Fin 2) * 2048 + 1 * q.val = q.val; rw [e1]; omega

/-- Column n of the block of w1 at point t is column  512·t + n  of w1. -/
theorem cols0 (c : Dev nD) (t : Fin cfg0.N) (q : Fin 2048) (n : Fin 512) (N : Fin 2048) (hN : N.val = t.val * 512 + n.val) :
    (iblk0 V c 1 t : Vec Ideal S2048x512 .f32) (ix2 q n) = (V c main_arg1 : S2048x2048.Idx → EReal) (ix2 q N) := by
  obtain ⟨-, -, e0, e1, -⟩ := points0 t
  unfold iblk0
  rw [View.read_apply]
  show V c main_arg1 _ = V c main_arg1 _
  congr 1
  funext a
  apply Fin.ext
  match a with
  | ⟨0, _⟩ => show win0_1.index t (0 : Fin 2) * 2048 + 1 * q.val = q.val; rw [e0]; omega
  | ⟨1, _⟩ => show win0_1.index t (1 : Fin 2) * 512 + 1 * n.val = N.val; rw [e1, hN]; omega

/-- Entry n of the block of the bias row at point t is entry  512·t + n  of the row. -/
theorem bias0 (c : Dev nD) (t : Fin cfg0.N) (u : Fin 1) (n : Fin 512) (N : Fin 2048) (hN : N.val = t.val * 512 + n.val) :
    (iblk0 V c 2 t : Vec Ideal S1x512 .f32) (ix2 u n) = (V c main_call0_v0 : S1x2048.Idx → EReal) (ix2 u N) := by
  obtain ⟨-, -, -, -, e0, e1, -⟩ := points0 t
  unfold iblk0
  rw [View.read_apply]
  show V c main_call0_v0 _ = V c main_call0_v0 _
  congr 1
  funext a
  apply Fin.ext
  match a with
  | ⟨0, _⟩ => show win0_2.index t (0 : Fin 2) * 1 + 1 * u.val = u.val; rw [e0]; omega
  | ⟨1, _⟩ => show win0_2.index t (1 : Fin 2) * 512 + 1 * n.val = N.val; rw [e1, hN]; omega

/-- Entry (p, n) of the result's block at point t sits at (p, 512·t + n) of the result. -/
theorem place0 (t : Fin cfg0.N) (p : Fin 2048) (n : Fin 512) (N : Fin 2048) (hN : N.val = t.val * 512 + n.val) :
    ((cfg0.win 3).blk t).view.emb (ix2 p n) = (ix2 p N : S2048x2048.Idx) := by
  obtain ⟨-, -, -, -, -, -, e0, e1, -⟩ := points0 t
  funext a
  apply Fin.ext
  match a with
  | ⟨0, _⟩ => show win0_3.index t (0 : Fin 2) * 2048 + 1 * p.val = p.val; rw [e0]; omega
  | ⟨1, _⟩ => show win0_3.index t (1 : Fin 2) * 512 + 1 * n.val = N.val; rw [e1, hN]; omega

/-- What point t writes back is block t of the hidden layer of the whole arrays: entry (p, n) of the layer of the
    blocks reads row p of x, column 512·t + n of w1 and entry 512·t + n of the bias row. -/
theorem flushed0 (c : Dev nD) (t : Fin cfg0.N) :
    (dat0 V c).flushed 3 t = ((cfg0.win 3).blk t).view.read (Elt Ideal)
      (hidden (V c main_arg0) (V c main_arg1) (V c main_call0_v0) : S2048x2048.Idx → EReal) := by
  show (cfg0.win 3).cut (grid0.coords t) ((dat0 V c).after 3 t) = _
  rw [after0_3]
  unfold out0_3
  rw [View.canon_unit_zero zero2]
  simp only [View.ld_unit_zero (S := S2048x2048) zero2, View.ld_unit_zero (S := S2048x512) zero2, View.ld_unit_zero (S := S1x512) zero2]
  rw [body0_eq]
  funext j
  obtain ⟨p, n, rfl⟩ : ∃ (p : Fin 2048) (n : Fin 512), j = ix2 p n := ⟨j 0, j 1, eq_ix2 j⟩
  obtain ⟨-, -, -, -, -, -, -, -, ht⟩ := points0 t
  have hp : t.val * 512 + n.val < 2048 := by omega
  rw [View.read_apply, place0 t p n ⟨t.val * 512 + n.val, hp⟩ rfl]
  exact hidden_congr (iblk0 V c 0 t : Vec Ideal S2048x2048 .f32) (V c main_arg0 : S2048x2048.Idx → EReal)
    (iblk0 V c 1 t : Vec Ideal S2048x512 .f32) (V c main_arg1 : S2048x2048.Idx → EReal)
    (iblk0 V c 2 t : Vec Ideal S1x512 .f32) (V c main_call0_v0 : S1x2048.Idx → EReal)
    p p n ⟨t.val * 512 + n.val, hp⟩
    (fun q => rows0 V c t p q) (fun q => cols0 V c t q n ⟨t.val * 512 + n.val, hp⟩ rfl)
    (bias0 V c t 0 n ⟨t.val * 512 + n.val, hp⟩ rfl)

/-- An index of the result is in point t's block iff each coordinate is in the block's range on its axis. -/
theorem inside0 (t : Fin cfg0.N) (i : S2048x2048.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_call0_v1).slice (win0_3.rect t)).set ↔ _
  rw [View.set_slice_whole, Rect.mem_set_unit]
  exact Iff.rfl

/-- The column blocks tile the result: column N is in the block of point N / 512. -/
theorem covered0 (i : S2048x2048.Idx) : ∃ t : Fin cfg0.N, (cfg0.win 3).flush t = true ∧ i ∈ ((cfg0.win 3).blk t).view.set := by
  have h0 : (i 0).val < 2048 := (i 0).isLt
  have h1 : (i 1).val < 2048 := (i 1).isLt
  have hN : cfg0.N = 4 := N_0
  have hlt : (i 1).val / 512 < cfg0.N := by rw [hN]; omega
  obtain ⟨-, -, -, -, -, -, e0, e1, -⟩ := points0 ⟨(i 1).val / 512, hlt⟩
  refine ⟨⟨(i 1).val / 512, hlt⟩, flush0_3 _, ?_⟩
  rw [inside0]
  intro a
  match a with
  | ⟨0, _⟩ => show win0_3.index ⟨(i 1).val / 512, hlt⟩ (0 : Fin 2) * 2048 ≤ (i 0).val ∧ (i 0).val < win0_3.index ⟨(i 1).val / 512, hlt⟩ (0 : Fin 2) * 2048 + 2048; rw [e0]; omega
  | ⟨1, _⟩ => show win0_3.index ⟨(i 1).val / 512, hlt⟩ (1 : Fin 2) * 512 ≤ (i 1).val ∧ (i 1).val < win0_3.index ⟨(i 1).val / 512, hlt⟩ (1 : Fin 2) * 512 + 512; rw [e1]; show (i 1).val / 512 * 512 ≤ (i 1).val ∧ (i 1).val < (i 1).val / 512 * 512 + 512; omega

/-- The first call's result array is the first hidden layer of the arrays it finds. -/
theorem final0 (c : Dev nD) :
    (dat0 V c).arrAt 3 cfg0.N = (hidden (V c main_arg0) (V c main_arg1) (V c main_call0_v0) : S2048x2048.Idx → EReal) :=
  (dat0 V c).arrAt_eq_of_cover 3 _ (fun t _ => flushed0 V c t) covered0

end Cert.ReferenceIdeal.Layers

end
-- ==== Proof.LibAddUnit.lean ====
/-
  A leading axis of extent one added, read at an index.

  An array of shape [A, B] reshaped to [1, A, B] keeps its elements in row-major order, so entry `(0, p, q)` of the
  reshaped block is entry `(p, q)` of the array. Any extents, any element type, no program needed.
-/
import Idealize.ShloMosaic.Lib.Pipeline.Value
import Idealize.ShloMosaic.Lib.ValueIdx

namespace Cert.AddUnit

open Idealize.ShloMosaic Idealize.ShloMosaic.ValueIdx

/-- An array of shape [A, B] given a leading unit axis reads, at `(u, p, q)`, the array at `(p, q)`. -/
theorem addUnit_apply {α : Type} {A B : Nat} (x : (⟨2, ![A, B]⟩ : Shape).Idx → α)
    (h : (⟨2, ![A, B]⟩ : Shape).ShapeCasts ⟨3, ![1, A, B]⟩) (u : Fin 1) (p : Fin A) (q : Fin B) :
    shapeCast ⟨3, ![1, A, B]⟩ x h (ix3 u p q) = x (ix2 p q) := by
  refine shapeCast_apply x h (ix3 u p q) (ix2 p q) ?_
  rw [Shape.rowMajor_val_three, Shape.rowMajor_val_two]
  show p.val * B + q.val = (u.val * A + p.val) * B + q.val
  have hu : u.val = 0 := by omega
  rw [hu]
  simp

end Cert.AddUnit
-- ==== Proof.RefLayer1.lean ====
/-
  The reference's second call: the 4 partial products of the output layer, one block of 512 hidden units at a time.

  The call runs over 4 points. Point t reads all of h1 (2048×2048), columns 512·t … 512·t + 511 of w2 and of the bias
  row, and rows 512·t … 512·t + 511 of w3 (2048×10); it forms the 512 hidden units  relu(h1 · w2 + b2)  of block t and
  contracts them against those rows of w3, and writes the 2048×10 product as slab t of the [4, 2048, 10] result. Unit n
  of block t is unit 512·t + n of the whole layer, and it depends only on a row of h1, column 512·t + n of w2 and entry
  512·t + n of the bias row, so the slab is slab t of the partial products of the whole arrays. The 4 slabs tile the
  result (entry (s, p, k) lies in the slab of point s), so after the last point the result array is all 4 of them.
-/
import proofs.«121058_g2000405920905475_pallasbulk_554_2_alg».proof.Proof.Gen.ReferenceIdeal.Frame
import proofs.«121058_g2000405920905475_pallasbulk_554_2_alg».proof.Proof.Spec
import proofs.«121058_g2000405920905475_pallasbulk_554_2_alg».proof.Proof.LibAddUnit
import proofs.«121058_g2000405920905475_pallasbulk_554_2_alg».proof.Proof.RefLayer0
import Idealize.ShloMosaic.Lib.Pipeline.Value

noncomputable section

namespace Cert.ReferenceIdeal.Layers

open Idealize.ShloMosaic Idealize.ShloMosaic.TcCoe Idealize.ShloMosaic.ValueIdx Idealize.SL.Sem
open Cert.ReferenceIdeal Cert.ReferenceIdeal.Gen Cert.Mlp3 Cert.DenseLayer
open Idealize.ShloMosaic.Pipeline (Dat)

open scoped BigOperators

variable (V : (c : Dev nD) → (b : Ref sig .tc) → Buf (Elt Ideal) ((c : Thread nD τ).loc b))

/-- The offsets (0, 0, 0), as a function. -/
theorem zero3 : (![0, 0, 0] : Fin 3 → Nat) = fun _ => 0 := funext fun a => by fin_cases a <;> rfl

/-- The product  [2048, 512] · [512, 10]  contracts the left operand's columns against the right operand's rows,
    with no batch axes. -/
theorem plain1 : Cert.PlainDot.IsPlain dot_S2048x512_S512x10_S2048x10_1_0_0_1_n_n := ⟨rfl, rfl, rfl, rfl, rfl, rfl⟩

/-- What the body stores, entry by entry:  relu(x0 · x1 + x2) · x3  under a leading axis of extent one. -/
theorem body1_apply (x0 : Vec Ideal S2048x2048 .f32) (x1 : Vec Ideal S2048x512 .f32) (x2 : Vec Ideal S1x512 .f32)
    (x3 : Vec Ideal S512x10 .f32) (u : Fin 1) (p : Fin 2048) (k : Fin 10) :
    k1_pay1 (F := Ideal) x0 x1 x2 x3 (ix3 u p k) = ∑ n : Fin 512, hidden x0 x1 x2 (ix2 p n) * x3 (ix2 n k) := by
  unfold k1_pay1
  refine (Cert.AddUnit.addUnit_apply _ _ u p k).trans ?_
  refine (product_apply plain1 none _ x3 p k).trans ?_
  rw [hidden_eq plain0]
  simp only [shapeCast_self]

/-- The block each window is on at point t: h1 always at block (0, 0); w2 and the bias row at block (0, t); w3 at block
    (t, 0); the result at block (t, 0, 0); and there are 4 points. -/
theorem points1 : ∀ t : Fin cfg1.N,
    win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = t.val ∧ win1_3.index t (1 : Fin 2) = 0
    ∧ win1_4.index t (0 : Fin 3) = t.val ∧ win1_4.index t (1 : Fin 3) = 0 ∧ win1_4.index t (2 : Fin 3) = 0 ∧ t.val < 4 :=
  (by decide +kernel : ∀ t : Fin grid1.N, _)

/-- The block of h1 at any point is all of h1. -/
theorem rows1 (c : Dev nD) (t : Fin cfg1.N) (p q : Fin 2048) :
    (iblk1 V c 0 t : Vec Ideal S2048x2048 .f32) (ix2 p q) = (V c main_call0_v1 : S2048x2048.Idx → EReal) (ix2 p q) := by
  obtain ⟨e0, e1, -⟩ := points1 t
  unfold iblk1
  rw [View.read_apply]
  show V c main_call0_v1 _ = V c main_call0_v1 _
  congr 1
  funext a
  apply Fin.ext
  match a with
  | ⟨0, _⟩ => show win1_0.index t (0 : Fin 2) * 2048 + 1 * p.val = p.val; rw [e0]; omega
  | ⟨1, _⟩ => show win1_0.index t (1 : Fin 2) * 2048 + 1 * q.val = q.val; rw [e1]; omega

/-- Column n of the block of w2 at point t is column  512·t + n  of w2. -/
theorem cols1 (c : Dev nD) (t : Fin cfg1.N) (q : Fin 2048) (n : Fin 512) (N : Fin 2048) (hN : N.val = t.val * 512 + n.val) :
    (iblk1 V c 1 t : Vec Ideal S2048x512 .f32) (ix2 q n) = (V c main_arg3 : S2048x2048.Idx → EReal) (ix2 q N) := by
  obtain ⟨-, -, e0, e1, -⟩ := points1 t
  unfold iblk1
  rw [View.read_apply]
  show V c main_arg3 _ = V c main_arg3 _
  congr 1
  funext a
  apply Fin.ext
  match a with
  | ⟨0, _⟩ => show win1_1.index t (0 : Fin 2) * 2048 + 1 * q.val = q.val; rw [e0]; omega
  | ⟨1, _⟩ => show win1_1.index t (1 : Fin 2) * 512 + 1 * n.val = N.val; rw [e1, hN]; omega

/-- Entry n of the block of the bias row at point t is entry  512·t + n  of the row. -/
theorem bias1 (c : Dev nD) (t : Fin cfg1.N) (u : Fin 1) (n : Fin 512) (N : Fin 2048) (hN : N.val = t.val * 512 + n.val) :
    (iblk1 V c 2 t : Vec Ideal S1x512 .f32) (ix2 u n) = (V c main_call0_v2 : S1x2048.Idx → EReal) (ix2 u N) := by
  obtain ⟨-, -, -, -, e0, e1, -⟩ := points1 t
  unfold iblk1
  rw [View.read_apply]
  show V c main_call0_v2 _ = V c main_call0_v2 _
  congr 1
  funext a
  apply Fin.ext
  match a with
  | ⟨0, _⟩ => show win1_2.index t (0 : Fin 2) * 1 + 1 * u.val = u.val; rw [e0]; omega
  | ⟨1, _⟩ => show win1_2.index t (1 : Fin 2) * 512 + 1 * n.val = N.val; rw [e1, hN]; omega

/-- Row n of the block of w3 at point t is row  512·t + n  of w3. -/
theorem outs1 (c : Dev nD) (t : Fin cfg1.N) (n : Fin 512) (k : Fin 10) (N : Fin 2048) (hN : N.val = t.val * 512 + n.val) :
    (iblk1 V c 3 t : Vec Ideal S512x10 .f32) (ix2 n k) = (V c main_arg5 : S2048x10.Idx → EReal) (ix2 N k) := by
  obtain ⟨-, -, -, -, -, -, e0, e1, -⟩ := points1 t
  unfold iblk1
  rw [View.read_apply]
  show V c main_arg5 _ = V c main_arg5 _
  congr 1
  funext a
  apply Fin.ext
  match a with
  | ⟨0, _⟩ => show win1_3.index t (0 : Fin 2) * 512 + 1 * n.val = N.val; rw [e0, hN]; omega
  | ⟨1, _⟩ => show win1_3.index t (1 : Fin 2) * 10 + 1 * k.val = k.val; rw [e1]; omega

/-- Entry (0, p, k) of the result's block at point t sits at (t, p, k) of the result. -/
theorem place1 (t : Fin cfg1.N) (u : Fin 1) (p : Fin 2048) (k : Fin 10) (s : Fin 4) (hs : s.val = t.val) :
    ((cfg1.win 4).blk t).view.emb (ix3 u p k) = (ix3 s p k : S4x2048x10.Idx) := by
  obtain ⟨-, -, -, -, -, -, -, -, e0, e1, e2, -⟩ := points1 t
  funext a
  apply Fin.ext
  match a with
  | ⟨0, _⟩ => show win1_4.index t (0 : Fin 3) * 1 + 1 * u.val = s.val; rw [e0, hs]; omega
  | ⟨1, _⟩ => show win1_4.index t (1 : Fin 3) * 2048 + 1 * p.val = p.val; rw [e1]; omega
  | ⟨2, _⟩ => show win1_4.index t (2 : Fin 3) * 10 + 1 * k.val = k.val; rw [e2]; omega

/-- What point t writes back is slab t of the partial products of the whole arrays: entry (p, k) contracts the 512
    hidden units of block t, unit n of the block being unit 512·t + n of the layer, against the matching rows of w3. -/
theorem flushed1 (c : Dev nD) (t : Fin cfg1.N) :
    (dat1 V c).flushed 4 t = ((cfg1.win 4).blk t).view.read (Elt Ideal)
      (partials (V c main_call0_v1) (V c main_arg3) (V c main_call0_v2) (V c main_arg5) : S4x2048x10.Idx → EReal) := by
  show (cfg1.win 4).cut (grid1.coords t) ((dat1 V c).after 4 t) = _
  rw [after1_4]
  unfold out1_4
  rw [View.canon_unit_zero zero3]
  simp only [View.ld_unit_zero (S := S2048x2048) zero2, View.ld_unit_zero (S := S2048x512) zero2, View.ld_unit_zero (S := S1x512) zero2, View.ld_unit_zero (S := S512x10) zero2]
  funext j
  obtain ⟨u, p, k, rfl⟩ : ∃ (u : Fin 1) (p : Fin 2048) (k : Fin 10), j = ix3 u p k := ⟨j 0, j 1, j 2, eq_ix3 j⟩
  obtain ⟨-, -, -, -, -, -, -, -, -, -, -, ht⟩ := points1 t
  rw [View.read_apply, place1 t u p k ⟨t.val, ht⟩ rfl]
  refine (body1_apply (iblk1 V c 0 t : Vec Ideal S2048x2048 .f32) (iblk1 V c 1 t : Vec Ideal S2048x512 .f32)
    (iblk1 V c 2 t : Vec Ideal S1x512 .f32) (iblk1 V c 3 t : Vec Ideal S512x10 .f32) u p k).trans ?_
  refine (Finset.sum_congr rfl fun n _ => ?_).trans
    (partials_apply (V c main_call0_v1) (V c main_arg3) (V c main_call0_v2) (V c main_arg5) ⟨t.val, ht⟩ p k).symm
  have hu : (unit ⟨t.val, ht⟩ n).val = t.val * 512 + n.val := unit_val ⟨t.val, ht⟩ n
  rw [hidden_congr (iblk1 V c 0 t : Vec Ideal S2048x2048 .f32) (V c main_call0_v1 : S2048x2048.Idx → EReal)
    (iblk1 V c 1 t : Vec Ideal S2048x512 .f32) (V c main_arg3 : S2048x2048.Idx → EReal)
    (iblk1 V c 2 t : Vec Ideal S1x512 .f32) (V c main_call0_v2 : S1x2048.Idx → EReal)
    p p n (unit ⟨t.val, ht⟩ n)
    (fun q => rows1 V c t p q) (fun q => cols1 V c t q n (unit ⟨t.val, ht⟩ n) hu)
    (bias1 V c t 0 n (unit ⟨t.val, ht⟩ n) hu),
    outs1 V c t n k (unit ⟨t.val, ht⟩ n) hu]

/-- An index of the result is in point t's block iff each coordinate is in the block's range on its axis. -/
theorem inside1 (t : Fin cfg1.N) (i : S4x2048x10.Idx) :
    i ∈ ((cfg1.win 4).blk t).view.set ↔ ∀ a : Fin 3, win1_4.index t a * S1x2048x10.size a ≤ (i a).val ∧ (i a).val < win1_4.index t a * S1x2048x10.size a + S1x2048x10.size a := by
  show i ∈ ((View.whole main_call0_v3).slice (win1_4.rect t)).set ↔ _
  rw [View.set_slice_whole, Rect.mem_set_unit]
  exact Iff.rfl

/-- The 4 slabs tile the result: entry (s, p, k) is in the block of point s. -/
theorem covered1 (i : S4x2048x10.Idx) : ∃ t : Fin cfg1.N, (cfg1.win 4).flush t = true ∧ i ∈ ((cfg1.win 4).blk t).view.set := by
  have h0 : (i 0).val < 4 := (i 0).isLt
  have h1 : (i 1).val < 2048 := (i 1).isLt
  have h2 : (i 2).val < 10 := (i 2).isLt
  have hN : cfg1.N = 4 := N_1
  have hlt : (i 0).val < cfg1.N := by rw [hN]; omega
  obtain ⟨-, -, -, -, -, -, -, -, e0, e1, e2, -⟩ := points1 ⟨(i 0).val, hlt⟩
  refine ⟨⟨(i 0).val, hlt⟩, flush1_4 _, ?_⟩
  rw [inside1]
  intro a
  match a with
  | ⟨0, _⟩ => show win1_4.index ⟨(i 0).val, hlt⟩ (0 : Fin 3) * 1 ≤ (i 0).val ∧ (i 0).val < win1_4.index ⟨(i 0).val, hlt⟩ (0 : Fin 3) * 1 + 1; rw [e0]; show (i 0).val * 1 ≤ (i 0).val ∧ (i 0).val < (i 0).val * 1 + 1; omega
  | ⟨1, _⟩ => show win1_4.index ⟨(i 0).val, hlt⟩ (1 : Fin 3) * 2048 ≤ (i 1).val ∧ (i 1).val < win1_4.index ⟨(i 0).val, hlt⟩ (1 : Fin 3) * 2048 + 2048; rw [e1]; omega
  | ⟨2, _⟩ => show win1_4.index ⟨(i 0).val, hlt⟩ (2 : Fin 3) * 10 ≤ (i 2).val ∧ (i 2).val < win1_4.index ⟨(i 0).val, hlt⟩ (2 : Fin 3) * 10 + 10; rw [e2]; omega

/-- The second call's result array is the 4 partial products of the arrays it finds. -/
theorem final1 (c : Dev nD) :
    (dat1 V c).arrAt 4 cfg1.N = (partials (V c main_call0_v1) (V c main_arg3) (V c main_call0_v2) (V c main_arg5) : S4x2048x10.Idx → EReal) :=
  (dat1 V c).arrAt_eq_of_cover 4 _ (fun t _ => flushed1 V c t) covered1

end Cert.ReferenceIdeal.Layers

end
-- ==== Proof.lean ====
/-
  A fused three-layer perceptron against a two-call reference, equal on the extended reals.

  Both programs compute  y = relu(relu(x·W1 + b1)·W2 + b2)·W3 + b3  for x, W1, W2 of shape [2048, 2048], W3 of shape
  [2048, 10]. The kernel does it in ONE call over 8 blocks of 256 input rows, with the last layer padded to 128 columns
  and the padding cut away afterwards. The reference uses TWO calls: the first hidden layer over 4 blocks of 512
  columns, then the second hidden layer and the output product over 4 blocks of 512 hidden units, giving 4 partial
  products that the host adds up from zero before adding the bias.

  On the extended reals a change of float format is the identity and a product into a zero accumulator is a finite sum,
  so the kernel's result is  Y = (Σ_n h2[·,n]·W3[n,·]) + b3  and the reference's is the same with the sum over the 2048
  hidden units taken as 4 sums of 512 added from zero. Addition is commutative and associative there, hence the two are
  equal; finiteness of the inputs is never used. The three frames are the generated ones; nothing was rewritten by the
  idealization, so `preserves` is trivial.
-/
import proofs.«121058_g2000405920905475_pallasbulk_554_2_alg».proof.Defs
import proofs.«121058_g2000405920905475_pallasbulk_554_2_alg».proof.Proof.Gen.Kernel
import proofs.«121058_g2000405920905475_pallasbulk_554_2_alg».proof.Proof.Gen.Kernel.Skeleton
import proofs.«121058_g2000405920905475_pallasbulk_554_2_alg».proof.Proof.Gen.Kernel.Launch
import proofs.«121058_g2000405920905475_pallasbulk_554_2_alg».proof.Proof.Gen.Kernel.Points
import proofs.«121058_g2000405920905475_pallasbulk_554_2_alg».proof.Proof.Gen.Kernel.Frame
import proofs.«121058_g2000405920905475_pallasbulk_554_2_alg».proof.Proof.Gen.KernelIdeal
import proofs.«121058_g2000405920905475_pallasbulk_554_2_alg».proof.Proof.Gen.KernelIdeal.Skeleton
import proofs.«121058_g2000405920905475_pallasbulk_554_2_alg».proof.Proof.Gen.KernelIdeal.Launch
import proofs.«121058_g2000405920905475_pallasbulk_554_2_alg».proof.Proof.Gen.KernelIdeal.Points
import proofs.«121058_g2000405920905475_pallasbulk_554_2_alg».proof.Proof.Gen.KernelIdeal.Frame
import proofs.«121058_g2000405920905475_pallasbulk_554_2_alg».proof.Proof.Gen.ReferenceIdeal
import proofs.«121058_g2000405920905475_pallasbulk_554_2_alg».proof.Proof.Gen.ReferenceIdeal.Skeleton
import proofs.«121058_g2000405920905475_pallasbulk_554_2_alg».proof.Proof.Gen.ReferenceIdeal.Launch
import proofs.«121058_g2000405920905475_pallasbulk_554_2_alg».proof.Proof.Gen.ReferenceIdeal.Points
import proofs.«121058_g2000405920905475_pallasbulk_554_2_alg».proof.Proof.Gen.ReferenceIdeal.Frame
import proofs.«121058_g2000405920905475_pallasbulk_554_2_alg».proof.Proof.Gen.Pre_finite_inputs
import proofs.«121058_g2000405920905475_pallasbulk_554_2_alg».proof.Proof.KernelValue
import proofs.«121058_g2000405920905475_pallasbulk_554_2_alg».proof.Proof.RefValue
import proofs.«121058_g2000405920905475_pallasbulk_554_2_alg».proof.Proof.RefLayer0
import proofs.«121058_g2000405920905475_pallasbulk_554_2_alg».proof.Proof.RefLayer1
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The idealization rewrote nothing. -/
theorem preserves : Cert.preserves_Kernel_KernelIdeal := trivial

/-- Both runs end with the network's output of the shared arguments: the kernel's by its run, the reference's by its
    run and the regrouping of the last sum. -/
theorem algebraic : Cert.algebraic_KernelIdeal_ReferenceIdeal := by
  intro m ρ m' ρ' _ hagree
  refine ⟨fun c => Cert.Mlp3.Y (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Whole.run m ρ, ?_⟩
  refine (θ_run Cert.ReferenceIdeal.defs _ _).mono (fun _ h c => ⟨(h c).1.trans ?_, (h c).2⟩)
    (Cert.ReferenceIdeal.Whole.run_of m' ρ' (fun V c => Cert.ReferenceIdeal.Layers.final0 V c) (fun V c => Cert.ReferenceIdeal.Layers.final1 V c))
  obtain ⟨e0, e1, e2, e3, e4, e5, e6⟩ := hagree c
  rw [Cert.Mlp3.Yblocks_eq_Y, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
